-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8x128 : Shape := ⟨2, ![8, 128]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S1x1 : Shape := ⟨2, ![1, 1]⟩

abbrev nBuf : Space → Nat
  | .hbm => 22
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x1, .i32⟩
  | .hbm, ⟨14, _⟩ => ⟨S1x8192, .i32⟩
  | .hbm, ⟨15, _⟩ => ⟨S8x128, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S8x128, .f32⟩
  | .local _ .vmem, ⟨9, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let arg1 : BitVec 32 := BitVec.ofNat 32 (i 1).val
  let c7_i32_25 : BitVec 32 := 7#32
  let v60 : BitVec 1 := Scalar.cmpi .eq arg1 c7_i32_25
  let v61 : BitVec 1 := Scalar.andi v59 v60
  let v62 : BitVec 32 := Scalar.extui v61
  let c0_i32_26 : BitVec 32 := 0#32
  let v63 : BitVec 1 := Scalar.cmpi .ne v62 c0_i32_26
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  slices_S8x128_S1x1_0_0 : S8x128.Slices ![0, 0] S1x1
  shapeCasts_S1x1_S_ : S1x1.ShapeCasts S_
  slices_S8x128_S1x1_0_1 : S8x128.Slices ![0, 1] S1x1
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KBAround.lean ====
/-
  The kernel's program, as printed, around its one pipelined region: the contents every buffer holds when the
  region is entered (after the host lines that normalise the rows and lay the labels out as a column and
  as a row), the block of each operand a grid point works on, the two conditions of the body in closed
  form (the running totals are reset at the first of the 64 points and copied out at the last), and where
  the output window is idle.
-/
import proofs.«148472_j22454089023818_1_alg».proof.Proof.Gen.Kernel.Launch
import proofs.«148472_j22454089023818_1_alg».proof.Proof.Gen.Kernel.Skeleton
import proofs.«148472_j22454089023818_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What the core's buffers hold when the region is entered: the launch contents after the host lines
    before the region. -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The running totals are reset: both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondFirst : ∀ t : Fin cfg0.N, condFirst (grid0.coords t) ↔ t.val = 0 :=
  (by decide +kernel : ∀ t : Fin grid0.N, condFirst (grid0.coords t) ↔ t.val = 0)

/-- The totals are copied out: both grid coordinates are at their last value. -/
abbrev condLast (i : grid0.Coords) : Prop := k0_cond2 i = 1#1
theorem hcondLast : ∀ t : Fin cfg0.N, condLast (grid0.coords t) ↔ t.val = 63 :=
  (by decide +kernel : ∀ t : Fin grid0.N, condLast (grid0.coords t) ↔ t.val = 63)

/-- The grid is walked row-major: the first coordinate is the quotient by 8, the second the remainder. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle wherever the totals are not copied out, -/
theorem idle4 : ∀ t : Fin cfg0.N, ¬condLast (grid0.coords t) → cfg0.idle 4 (grid0.coords t) = true := by decide +kernel
/-- and is not written back there; -/
theorem noFlush4 : ∀ t : Fin cfg0.N, ¬condLast (grid0.coords t) → (cfg0.win 4).flush t = false := by decide +kernel
/-- at the last point it is live. -/
theorem live4 : ∀ t : Fin cfg0.N, condLast (grid0.coords t) → cfg0.idle 4 (grid0.coords t) = false := by decide +kernel

/-! ## The memrefs the body is called with -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)
/-- The buffer of the running totals. -/
abbrev scM : Memref sig .tc .vmem S8x128 .f32 := Memref.whole cc0_scratch0

/-- What the region's invariant hands the body besides the windows: the totals' buffer at some contents, and
    the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Gen

end
-- ==== Proof.KBStep.lean ====
/-
  One grid point's update of the running totals, as one pure function of the four input blocks and of what
  the totals' buffer held: the body's last store writes it.
-/
import proofs.«148472_j22454089023818_1_alg».proof.Proof.Gen.Kernel.Skeleton
import Idealize.ShloMosaic.Lib.Pipeline.FrameBody
import Idealize.ShloMosaic.Lib.Pipeline.Value

noncomputable section

namespace Cert.Kernel.Gen

open Idealize.ShloMosaic Idealize.SL.Sem

variable {F : FTy → Type} [FloatOps F]

/-- A buffer read back after stores the last of which covers it whole holds that store's value. -/
theorem read_whole_store_last {sig' : RefSig} {κ : Kind} {sp : Space} {Val : EltTy → Type} [∀ e, Nonempty (Val e)] {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩), View.canon_cons_unit_zero h]

/-- The two zero offsets of a whole-buffer access. -/
theorem off00 : (![0, 0] : Fin 2 → Nat) = fun _ => 0 := by
  funext a; match a with | ⟨0, _⟩ => rfl | ⟨1, _⟩ => rfl

/-- One grid point's update of the running totals: the tile's equal-label sum is added at entry (0, 0) and the
    tile's total less that sum at entry (0, 1). -/
def stepOf (x0 : Vec F S1024x512 .bf16) (x1 : Vec F S1024x512 .bf16) (x2 : Vec F S1024x1 .i32) (x3 : Vec F S1x1024 .i32)
    (S : Vec F S8x128 .f32) : Vec F S8x128 .f32 :=
  k0_pay1 (iota .tc S8x128 32 [0] iota_S8x128_d0_w32) (iota .tc S8x128 32 [1] iota_S8x128_d1_w32)
    (k0_pay5 x0 x1 x2 x3) (k0_pay6 x0 x1 x2 x3) S

end Cert.Kernel.Gen

end
-- ==== Proof.KBBody.lean ====
/-
  The kernel body on any staging memrefs, in its three cases: at the first grid point it zeroes the totals'
  buffer and then updates it; at a later point it updates what the buffer held; at the last point it also
  copies the updated totals into the output window's buffer.  In every case the four input buffers are
  only read.
-/
import proofs.«148472_j22454089023818_1_alg».proof.Proof.KBAround
import proofs.«148472_j22454089023818_1_alg».proof.Proof.KBStep

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point that is neither the first nor the last: the totals' buffer goes from `S` to its update. -/
theorem body_mid (c : Dev nD) (i : grid0.Coords)
    (a2 : Memref sig .tc .vmem S1024x512 .bf16) (h2 : a2.IsWhole) (a3 : Memref sig .tc .vmem S1024x512 .bf16) (h3 : a3.IsWhole)
    (a4 : Memref sig .tc .vmem S1024x1 .i32) (h4 : a4.IsWhole) (a5 : Memref sig .tc .vmem S1x1024 .i32) (h5 : a5.IsWhole)
    (a6 : Memref sig .tc .vmem S8x128 .f32) (h6 : a6.IsWhole) (a7 : Memref sig .tc .vmem S8x128 .f32) (h7 : a7.IsWhole)
    (hc1 : ¬condFirst i) (hc2 : ¬condLast i) (x0 : Vec F S1024x512 .bf16) (x1 : Vec F S1024x512 .bf16) (x2 : Vec F S1024x1 .i32) (x3 : Vec F S1x1024 .i32) (S : Vec F S8x128 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a7 fullShare S
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a7 fullShare (stepOf x0 x1 x2 x3 S)) -∗ K ⟨⟩))
      ⊢ wp frame (wpE (defs₀ (F := F)) Variants.none c none) E (cc0__margin_loss_kernel i a2 h2 a3 h3 a4 h4 a5 h5 a6 h6 a7 h7) K := by
  simp only [cc0__margin_loss_kernel_eq_skeleton]; unfold cc0__margin_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := h2.eq_unread hf0; obtain rfl := h3.eq_unread hf1; obtain rfl := h4.eq_unread hf2; obtain rfl := h5.eq_unread hf3
  obtain rfl := h7.eq_unread hfs
  sl_exec (disch := first | exact hc1 | exact hc2)
  sl_step
  iapply Hk
  isplitl [H0]
  · iexists _; isplitr
    · ipureintro; exact h2.read_unread _
    iexact H0
  isplitl [H1]
  · iexists _; isplitr
    · ipureintro; exact h3.read_unread _
    iexact H1
  isplitl [H2]
  · iexists _; isplitr
    · ipureintro; exact h4.read_unread _
    iexact H2
  isplitl [H3]
  · iexists _; isplitr
    · ipureintro; exact h5.read_unread _
    iexact H3
  iexists _; isplitr
  swap
  · iexact HS
  ipureintro
  refine (read_whole_store_last _ _ off00 _ _ _).trans ?_
  simp only [View.readAt_eq_ld, h2.read_unread, h3.read_unread, h4.read_unread, h5.read_unread, h7.read_unread,
    View.ld_unit_zero (S := S1024x512) off00, View.ld_unit_zero (S := S1024x1) off00, View.ld_unit_zero (S := S1x1024) off00,
    View.ld_unit_zero (S := S8x128) off00]
  rfl

set_option maxHeartbeats 1000000 in
/-- The first point: whatever the totals' buffer held, it ends at the update of the zeroed buffer. -/
theorem body_first (c : Dev nD) (i : grid0.Coords)
    (a2 : Memref sig .tc .vmem S1024x512 .bf16) (h2 : a2.IsWhole) (a3 : Memref sig .tc .vmem S1024x512 .bf16) (h3 : a3.IsWhole)
    (a4 : Memref sig .tc .vmem S1024x1 .i32) (h4 : a4.IsWhole) (a5 : Memref sig .tc .vmem S1x1024 .i32) (h5 : a5.IsWhole)
    (a6 : Memref sig .tc .vmem S8x128 .f32) (h6 : a6.IsWhole) (a7 : Memref sig .tc .vmem S8x128 .f32) (h7 : a7.IsWhole)
    (hc1 : condFirst i) (hc2 : ¬condLast i) (x0 : Vec F S1024x512 .bf16) (x1 : Vec F S1024x512 .bf16) (x2 : Vec F S1024x1 .i32) (x3 : Vec F S1x1024 .i32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a7 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a7 fullShare (stepOf x0 x1 x2 x3 k0_pay2)) -∗ K ⟨⟩))
      ⊢ wp frame (wpE (defs₀ (F := F)) Variants.none c none) E (cc0__margin_loss_kernel i a2 h2 a3 h3 a4 h4 a5 h5 a6 h6 a7 h7) K := by
  simp only [cc0__margin_loss_kernel_eq_skeleton]; unfold cc0__margin_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := h2.eq_unread hf0; obtain rfl := h3.eq_unread hf1; obtain rfl := h4.eq_unread hf2; obtain rfl := h5.eq_unread hf3
  sl_exec (disch := first | exact hc1 | exact hc2)
  sl_step
  iapply Hk
  isplitl [H0]
  · iexists _; isplitr
    · ipureintro; exact h2.read_unread _
    iexact H0
  isplitl [H1]
  · iexists _; isplitr
    · ipureintro; exact h3.read_unread _
    iexact H1
  isplitl [H2]
  · iexists _; isplitr
    · ipureintro; exact h4.read_unread _
    iexact H2
  isplitl [H3]
  · iexists _; isplitr
    · ipureintro; exact h5.read_unread _
    iexact H3
  iexists _; isplitr
  swap
  · iexact HS
  ipureintro
  refine (read_whole_store_last _ _ off00 _ _ _).trans ?_
  simp only [View.readAt_eq_ld, h2.read_unread, h3.read_unread, h4.read_unread, h5.read_unread,
    View.ld_unit_zero (S := S1024x512) off00, View.ld_unit_zero (S := S1024x1) off00, View.ld_unit_zero (S := S1x1024) off00,
    View.ld_unit_zero (S := S8x128) off00]
  unfold stepOf
  refine congrArg (k0_pay1 _ _ _ _) ?_
  delta body_first.sl.v54 body_first.sl.HS_1
  exact View.readCov_unit_zero _ off00 _ _

set_option maxHeartbeats 1000000 in
/-- The last point: the totals' buffer goes from `S` to its update, and the output window's buffer, whatever it
    held, ends at the same. -/
theorem body_last (c : Dev nD) (i : grid0.Coords)
    (a2 : Memref sig .tc .vmem S1024x512 .bf16) (h2 : a2.IsWhole) (a3 : Memref sig .tc .vmem S1024x512 .bf16) (h3 : a3.IsWhole)
    (a4 : Memref sig .tc .vmem S1024x1 .i32) (h4 : a4.IsWhole) (a5 : Memref sig .tc .vmem S1x1024 .i32) (h5 : a5.IsWhole)
    (a6 : Memref sig .tc .vmem S8x128 .f32) (h6 : a6.IsWhole) (a7 : Memref sig .tc .vmem S8x128 .f32) (h7 : a7.IsWhole)
    (hc1 : ¬condFirst i) (hc2 : condLast i) (x0 : Vec F S1024x512 .bf16) (x1 : Vec F S1024x512 .bf16) (x2 : Vec F S1024x1 .i32) (x3 : Vec F S1x1024 .i32) (S : Vec F S8x128 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ owns (c : Thread nD τ) a7 fullShare S
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare (stepOf x0 x1 x2 x3 S)
            ∗ owns (c : Thread nD τ) a7 fullShare (stepOf x0 x1 x2 x3 S)) -∗ K ⟨⟩))
      ⊢ wp frame (wpE (defs₀ (F := F)) Variants.none c none) E (cc0__margin_loss_kernel i a2 h2 a3 h3 a4 h4 a5 h5 a6 h6 a7 h7) K := by
  simp only [cc0__margin_loss_kernel_eq_skeleton]; unfold cc0__margin_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  obtain rfl := h2.eq_unread hf0; obtain rfl := h3.eq_unread hf1; obtain rfl := h4.eq_unread hf2; obtain rfl := h5.eq_unread hf3
  obtain rfl := h7.eq_unread hfs
  sl_exec (disch := first | exact hc1 | exact hc2)
  sl_step
  iapply Hk
  isplitl [H0]
  · iexists _; isplitr
    · ipureintro; exact h2.read_unread _
    iexact H0
  isplitl [H1]
  · iexists _; isplitr
    · ipureintro; exact h3.read_unread _
    iexact H1
  isplitl [H2]
  · iexists _; isplitr
    · ipureintro; exact h4.read_unread _
    iexact H2
  isplitl [H3]
  · iexists _; isplitr
    · ipureintro; exact h5.read_unread _
    iexact H3
  isplitl [H6]
  · iexists _; isplitr
    swap
    · iexact H6
    ipureintro
    refine (read_whole_store_last _ _ off00 _ _ _).trans ?_
    delta body_last.sl.v64 body_last.sl.HS_1
    refine (View.readCov_unit_zero _ off00 _ _).trans ?_
    simp only [View.readAt_eq_ld, h2.read_unread, h3.read_unread, h4.read_unread, h5.read_unread, h7.read_unread,
    View.ld_unit_zero (S := S1024x512) off00, View.ld_unit_zero (S := S1024x1) off00, View.ld_unit_zero (S := S1x1024) off00,
    View.ld_unit_zero (S := S8x128) off00]
    rfl
  iexists _; isplitr
  swap
  · iexact HS
  ipureintro
  delta body_last.sl.HS_1
  refine (read_whole_store_last _ _ off00 _ _ _).trans ?_
  simp only [View.readAt_eq_ld, h2.read_unread, h3.read_unread, h4.read_unread, h5.read_unread, h7.read_unread,
    View.ld_unit_zero (S := S1024x512) off00, View.ld_unit_zero (S := S1024x1) off00, View.ld_unit_zero (S := S1x1024) off00,
    View.ld_unit_zero (S := S8x128) off00]
  rfl

end Cert.Kernel.Gen

end
-- ==== Proof.KBData.lean ====
/-
  The proof data of the region and the body's obligation at every grid point.

  The running totals' buffer is carried from point to point: after point 0 it holds one update of the
  zeroed buffer, after point n + 1 one update of what point n left (`totalsAt`).  The four input windows
  hold their blocks at every point; the output window is idle until the last point, where the totals
  are copied into it.  The normalised matrix is handed to two windows at once, so each holds half of it.
-/
import proofs.«148472_j22454089023818_1_alg».proof.Proof.KBBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The totals, point by point -/

/-- What the totals' buffer holds after the body at point `n`. -/
def totalsAt (c : Dev nD) : (n : ℕ) → n < cfg0.N → Vec F S8x128 .f32
  | 0, h => stepOf (iblk m c 0 ⟨0, h⟩) (iblk m c 1 ⟨0, h⟩) (iblk m c 2 ⟨0, h⟩) (iblk m c 3 ⟨0, h⟩) k0_pay2
  | n + 1, h => stepOf (iblk m c 0 ⟨n + 1, h⟩) (iblk m c 1 ⟨n + 1, h⟩) (iblk m c 2 ⟨n + 1, h⟩) (iblk m c 3 ⟨n + 1, h⟩)
      (totalsAt c n (Nat.lt_of_succ_lt h))

theorem totalsAt_first (c : Dev nD) (t : Fin cfg0.N) (h : t.val = 0) :
    totalsAt m c t.val t.isLt = stepOf (iblk m c 0 t) (iblk m c 1 t) (iblk m c 2 t) (iblk m c 3 t) k0_pay2 := by
  obtain ⟨n, hn⟩ := t
  cases n with
  | zero => rfl
  | succ n => exact absurd h (Nat.succ_ne_zero n)

theorem totalsAt_later (c : Dev nD) (t : Fin cfg0.N) (h : t.val ≠ 0) :
    totalsAt m c t.val t.isLt = stepOf (iblk m c 0 t) (iblk m c 1 t) (iblk m c 2 t) (iblk m c 3 t)
      (totalsAt m c (t.val - 1) (Nat.lt_of_le_of_lt (Nat.sub_le _ _) t.isLt)) := by
  obtain ⟨n, hn⟩ := t
  cases n with
  | zero => exact absurd rfl h
  | succ n => rfl

/-! ## The invariant between points -/

/-- Before the first point the totals' buffer holds anything; afterwards what the point before left. -/
def PhiS (c : Dev nD) : (n : ℕ) → n ≤ cfg0.N → sProp 𝕄
  | 0, _ => Pipeline.ΦA spec0 c
  | n + 1, hn => iprop(iprop(owns (c : Thread nD τ) scM fullShare (totalsAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (totalsAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (totalsAt m c (n - 1) (by omega))) ∗ (∃ r, prngReg c r)) := by
  cases n with
  | zero => exact absurd rfl hz
  | succ n => rfl

/-! ## The proof data -/

/-- The arrays as the region finds them; the inputs' buffers at their blocks, the output's at the totals;
    the matrix shared by its two windows half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => totalsAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = totalsAt m c t.val t.isLt := by dsimp only [dats]

/-- An input's current buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]

set_option maxHeartbeats 4800000 in
/-- The body at any point: the first point resets the totals and updates them, a later one updates what the
    point before left, and the last also copies them into the output window's buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases hF : t.val = 0
  · have hL : ¬condLast (grid0.coords t) := fun h => by have := (hcondLast t).mp h; omega
    rw [Dat.leavesExact_idle (dats m 0 c) 4 t (idle4 t hL) (noFlush4 t hL)]
    rw [totalsAt_first m c t hF]
    rw [PhiS_castSucc m c t, PhiS_zero m c _ _ hF, PhiA0_eq]
    iintro ⟨⟨HS, Hg⟩, Ho, ⟨%d0, H0⟩, ⟨%d1, H1⟩, ⟨%d2, H2⟩, ⟨%d3, H3⟩, H4⟩
    iapply (body_first c (grid0.coords t) _ _ _ _ _ _ _ _ _ _ _ _ ((hcondFirst t).mpr hF) hL
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hF' : ¬condFirst (grid0.coords t) := fun h => hF ((hcondFirst t).mp h)
    rw [totalsAt_later m c t hF]
    rw [PhiS_castSucc m c t, PhiS_pos m c _ _ hF]
    by_cases hL : t.val = 63
    · have hL' : condLast (grid0.coords t) := (hcondLast t).mpr hL
      rw [show (dats m 0 c).leavesExact 4 t = owns (c : Thread nD τ) (ms4 t) fullShare ((dats m 0 c).after 4 t) from by
        unfold Dat.leavesExact; rw [live4 t hL'], after4, totalsAt_later m c t hF]
      iintro ⟨⟨HS, Hg⟩, Ho, ⟨%d0, H0⟩, ⟨%d1, H1⟩, ⟨%d2, H2⟩, ⟨%d3, H3⟩, ⟨%d4, H4⟩⟩
      iapply (body_last c (grid0.coords t) _ _ _ _ _ _ _ _ _ _ _ _ hF' hL'
        (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · have hL' : ¬condLast (grid0.coords t) := fun h => hL ((hcondLast t).mp h)
      rw [Dat.leavesExact_idle (dats m 0 c) 4 t (idle4 t hL') (noFlush4 t hL')]
      iintro ⟨⟨HS, Hg⟩, Ho, ⟨%d0, H0⟩, ⟨%d1, H1⟩, ⟨%d2, H2⟩, ⟨%d3, H3⟩, H4⟩
      iapply (body_mid c (grid0.coords t) _ _ _ _ _ _ _ _ _ _ _ _ hF' hL'
        (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the totals' buffer holds is forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨HS, Hg⟩
  isplitl [HS]
  · iexists _; iexact HS
  iexact Hg

end Cert.Kernel.Gen

end
-- ==== Proof.KBExit.lean ====
/-
  The run of the whole program at any float instance.

  The normalised matrix is one array handed to two windows; each window holds half of it while the region
  runs, and the halves are joined again when the host lines after the region need the arrays whole.  The
  region leaves its one output array at what the last grid point copied out; the six host lines after it read
  that array and write six fresh buffers.  The run ends with every array of the region at what the proof data
  computes and every other buffer at what those lines leave.
-/
import proofs.«148472_j22454089023818_1_alg».proof.Proof.KBData

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows -/

/-- Five windows, four distinct arrays. -/
theorem arrImage : Finset.univ.image (Pipeline.arrRef spec0) = ([main_v5, main_v6, main_v7, main_v8] : List (Ref sig .tc)).toFinset := by decide

theorem arrBufs_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)) := by
  unfold Pipeline.arrBufs
  rw [bigSep_eq_bigSepL_of_eq [main_v5, main_v6, main_v7, main_v8] arrImage (by decide)]
  rfl

/-- A buffer held whole is held as two halves, and back. -/
theorem halves (c : Dev nD) (b : Ref sig .tc) (f : Buf (Elt F) ((c : Thread nD τ).loc b)) :
    ((((c : Thread nD τ).loc b) ↦{fullShare} f) : sProp 𝕄) ⊣⊢ iprop((((c : Thread nD τ).loc b) ↦{fullShare.left} f) ∗ (((c : Thread nD τ).loc b) ↦{fullShare.right} f)) :=
  pointsTo_share (IsOp.posShare_halves fullShare).mem_op

/-- The proof data's arrays, window by window: the matrix as two halves. -/
theorem arrays_eq' (c : Dev nD) (Fs : (w : Fin cfg0.W) → Buf (Elt F) ((cfg0.win w).arr.view.loc (c : Thread nD τ))) :
    (dats m 0 c).arrays Fs
      = iprop((((c : Thread nD τ).loc main_v5) ↦{fullShare.left} Fs 0) ∗ (((c : Thread nD τ).loc main_v5) ↦{fullShare.right} Fs 1)
          ∗ (((c : Thread nD τ).loc main_v6) ↦{fullShare} Fs 2) ∗ (((c : Thread nD τ).loc main_v7) ↦{fullShare} Fs 3)
          ∗ (((c : Thread nD τ).loc main_v8) ↦{fullShare} Fs 4)) := by
  unfold Dat.arrays
  rw [bigSep_W0]
  have e0 := congrArg (fun s => ((((c : Thread nD τ).loc main_v5) ↦[s]{fullShare.left} Fs 0) : sProp 𝕄)) (arr_whole0 0).set_eq_univ
  have e1 := congrArg (fun s => ((((c : Thread nD τ).loc main_v5) ↦[s]{fullShare.right} Fs 1) : sProp 𝕄)) (arr_whole0 1).set_eq_univ
  have e2 := congrArg (fun s => ((((c : Thread nD τ).loc main_v6) ↦[s]{fullShare} Fs 2) : sProp 𝕄)) (arr_whole0 2).set_eq_univ
  have e3 := congrArg (fun s => ((((c : Thread nD τ).loc main_v7) ↦[s]{fullShare} Fs 3) : sProp 𝕄)) (arr_whole0 3).set_eq_univ
  have e4 := congrArg (fun s => ((((c : Thread nD τ).loc main_v8) ↦[s]{fullShare} Fs 4) : sProp 𝕄)) (arr_whole0 4).set_eq_univ
  exact congr (congrArg BI.sep e0) (congr (congrArg BI.sep e1) (congr (congrArg BI.sep e2) (congr (congrArg BI.sep e3) e4)))

/-- At the region's entry the buffers behind the arrays, each whole, make the proof data's arrays. -/
theorem hsplit (c : Dev nD) : (Pipeline.arrBufs spec0 c (V m c) : sProp 𝕄) ⊢ (dats m 0 c).arrays ((dats m 0 c).arrAt · 0) := by
  rw [arrBufs_eq, arrays_eq']
  iintro ⟨H5, H6, H7, H8⟩
  ihave H5' := (halves c main_v5 _).1 $$ H5
  icases H5' with ⟨H5l, H5r⟩
  isplitl [H5l]; · iexact H5l
  isplitl [H5r]; · iexact H5r
  isplitl [H6]; · iexact H6
  isplitl [H7]; · iexact H7
  iexact H8

/-! ## The region's exit and the lines after it -/

open Classical in
/-- What the core's buffers hold when the region is left: the output array at what the proof data computes, every
    other buffer as the region found it. -/
def Wexit (c : Dev nD) : Valuation τ sig (Elt F) :=
  Function.update (V0 m c) (Proc.devRef .tc main_v8) ((dats m 0 c).arrAt 4 cfg0.N)

/-- What they hold after the six host lines that follow the region. -/
def Wend (c : Dev nD) : Valuation τ sig (Elt F) := StableHlo.after hostOps1 (Wexit m c)

theorem Wexit_out (c : Dev nD) : Wexit m c (Proc.devRef .tc main_v8) = (dats m 0 c).arrAt 4 cfg0.N := by
  unfold Wexit; exact Function.update_self ..

theorem Wexit_ne (c : Dev nD) (b : Ref sig .tc) (h : b ≠ main_v8) : Wexit m c (Proc.devRef .tc b) = V m c b := by
  unfold Wexit; exact Function.update_of_ne (StableHlo.devRef_ne_of_ne h) ..

/-- The lines after the region write none of the region's arrays. -/
theorem Wend_keep (c : Dev nD) (b : Ref sig .tc) (hb : b ∉ [main_v9, main_v10, main_v11, main_v12, main_v13, main_v14]) :
    Wend m c (Proc.devRef .tc b) = Wexit m c (Proc.devRef .tc b) := by
  unfold Wend
  refine StableHlo.after_of_forall_not_mem _ _ fun op hop => ?_
  simp only [hostOps1, List.mem_cons, List.mem_nil_iff, or_false] at hop
  rcases hop with rfl | rfl | rfl | rfl | rfl | rfl <;>
    simp only [StableHlo.unary_writes, StableHlo.binary_writes, StableHlo.reshape_writes, Finset.mem_singleton] <;>
    exact StableHlo.devRef_ne_of_ne (fun e => hb (by subst e; simp))

theorem exit0 (c : Dev nD) : (dats m 0 c).arrAt 0 cfg0.N = Wexit m c (Proc.devRef .tc main_v5) :=
  ((dats m 0 c).arrAt_in 0 rfl _).trans ((A_eq m c 0).trans (Wexit_ne m c main_v5 (by decide)).symm)
theorem exit1 (c : Dev nD) : (dats m 0 c).arrAt 1 cfg0.N = Wexit m c (Proc.devRef .tc main_v5) :=
  ((dats m 0 c).arrAt_in 1 rfl _).trans ((A_eq m c 1).trans (Wexit_ne m c main_v5 (by decide)).symm)
theorem exit2 (c : Dev nD) : (dats m 0 c).arrAt 2 cfg0.N = Wexit m c (Proc.devRef .tc main_v6) :=
  ((dats m 0 c).arrAt_in 2 rfl _).trans ((A_eq m c 2).trans (Wexit_ne m c main_v6 (by decide)).symm)
theorem exit3 (c : Dev nD) : (dats m 0 c).arrAt 3 cfg0.N = Wexit m c (Proc.devRef .tc main_v7) :=
  ((dats m 0 c).arrAt_in 3 rfl _).trans ((A_eq m c 3).trans (Wexit_ne m c main_v7 (by decide)).symm)

/-- At the exit the proof data's arrays are the buffers behind them, each whole: the two halves of the matrix
    hold the same contents and join. -/
theorem exit_arrays (c : Dev nD) (W : Valuation τ sig (Elt F))
    (h5 : W (Proc.devRef .tc main_v5) = Wexit m c (Proc.devRef .tc main_v5)) (h6 : W (Proc.devRef .tc main_v6) = Wexit m c (Proc.devRef .tc main_v6))
    (h7 : W (Proc.devRef .tc main_v7) = Wexit m c (Proc.devRef .tc main_v7)) (h8 : W (Proc.devRef .tc main_v8) = Wexit m c (Proc.devRef .tc main_v8)) :
    ((dats m 0 c).arrays ((dats m 0 c).arrAt · cfg0.N) : sProp 𝕄) ⊣⊢ Pipeline.arrBufs spec0 c (fun b => W (Proc.devRef .tc b)) := by
  rw [arrBufs_eq, arrays_eq', exit0, exit1, exit2, exit3, h5, h6, h7, h8, Wexit_out]
  constructor
  · iintro ⟨H5l, H5r, H6, H7, H8⟩
    isplitl [H5l H5r]
    · iapply (halves c main_v5 _).2
      isplitl [H5l]; · iexact H5l
      iexact H5r
    isplitl [H6]; · iexact H6
    isplitl [H7]; · iexact H7
    iexact H8
  · iintro ⟨H5, H6, H7, H8⟩
    ihave H5' := (halves c main_v5 _).1 $$ H5
    icases H5' with ⟨H5l, H5r⟩
    isplitl [H5l]; · iexact H5l
    isplitl [H5r]; · iexact H5r
    isplitl [H6]; · iexact H6
    isplitl [H7]; · iexact H7
    iexact H8

/-- A buffer that bypasses the region is none of its arrays. -/
theorem rest_ne_out (b : Ref sig .tc) (hb : b ∈ Pipeline.restRefs sig spec0) : b ≠ main_v8 := fun e =>
  (Finset.mem_sdiff.mp hb).2 (e ▸ (by rw [arrImage]; decide))

theorem rest_not_written (b : Ref sig .tc) (hb : b ∈ Finset.univ.image (Pipeline.arrRef spec0)) :
    b ∉ [main_v9, main_v10, main_v11, main_v12, main_v13, main_v14] := by
  rw [arrImage] at hb; revert b; decide

end Cert.Kernel.Gen

end
-- ==== Proof.KBRun.lean ====
/-
  The run of the whole program, at any float instance: the host lines before the region, the region over its
  64 grid points, the host lines after it.  Every weakly fair execution terminates without a fault; the
  region's arrays end at what the proof data computes from the body's stores, every other buffer at what the
  host lines leave.
-/
import proofs.«148472_j22454089023818_1_alg».proof.Proof.KBExit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region run from the region's exit: they read the output array, held whole, and write
    six buffers that bypass the region; the arrays come back as they were. -/
theorem htail (c : Dev nD) (Q' : PUnit → sProp 𝕄) :
    iprop((iprop((dats m 0 c).arrays ((dats m 0 c).arrAt · cfg0.N)
              ∗ Pipeline.unscopedRest spec0 c (fun b => Wend m c (Proc.devRef .tc b))) -∗ Q' ⟨⟩)
        ∗ boundary (c : Thread nD τ) ∗ (dats m 0 c).arrays ((dats m 0 c).arrAt · cfg0.N)
        ∗ Pipeline.unscopedRest spec0 c (V m c))
      ⊢ wp frame (wpE (defs (F := F)) (Variants.lift Variants.none) (c : Thread nD τ) none) Set.univ
          (Pipeline.chain [StableHlo.seq hostOps1]) Q' := by
  classical
  have hV : (Pipeline.unscopedRest spec0 c (V m c) : sProp 𝕄) = Pipeline.unscopedRest spec0 c (fun b => Wexit m c (Proc.devRef .tc b)) := by
    unfold Pipeline.unscopedRest
    exact bigSep_congr fun b hb => by simp only [Wexit_ne m c b (rest_ne_out b hb)]
  have hin : (iprop((dats m 0 c).arrays ((dats m 0 c).arrAt · cfg0.N) ∗ Pipeline.unscopedRest spec0 c (V m c)) : sProp 𝕄)
      ⊢ StableHlo.held (c : Thread nD τ) (Pipeline.ucRefs τ sig) (Wexit m c) := by
    rw [← Pipeline.unscopedBufs_held (Ix := Unit) (Name := ℕ) (U := UR sig nD τ) (Lvl := ℕ) c (Wexit m c),
      Pipeline.unscopedBufs_split₀ cfgs 0 winFacts₀0.arr_unscoped c, hV]
    iintro ⟨HA, HR⟩
    isplitl [HA]
    · iapply (exit_arrays m c (Wexit m c) rfl rfl rfl rfl).1
      iexact HA
    iexact HR
  have hout : (StableHlo.held (c : Thread nD τ) (Pipeline.ucRefs τ sig) (Wend m c) : sProp 𝕄)
      ⊢ iprop((dats m 0 c).arrays ((dats m 0 c).arrAt · cfg0.N) ∗ Pipeline.unscopedRest spec0 c (fun b => Wend m c (Proc.devRef .tc b))) := by
    rw [← Pipeline.unscopedBufs_held (Ix := Unit) (Name := ℕ) (U := UR sig nD τ) (Lvl := ℕ) c (Wend m c),
      Pipeline.unscopedBufs_split₀ cfgs 0 winFacts₀0.arr_unscoped c]
    iintro ⟨HA, HR⟩
    isplitl [HA]
    · iapply (exit_arrays m c (Wend m c) (Wend_keep m c main_v5 (by decide)) (Wend_keep m c main_v6 (by decide))
        (Wend_keep m c main_v7 (by decide)) (Wend_keep m c main_v8 (by decide))).2
      iexact HA
    iexact HR
  iintro ⟨Hk, Hb, HA, HR⟩
  ihave Hheld := hin $$ [HA HR]
  · isplitl [HA]; · iexact HA
    iexact HR
  rw [← List.append_nil ([StableHlo.seq hostOps1] : List (Prog (TpuEff nD τ sig (Elt F) (Pipeline.Sig Λ₀ (Fin 1) fun p => (pcfgs (F := F) p).Adm) .tc) PUnit))]
  iapply (Pipeline.wp_seqs_then (fun q => (cfgs q).toPCfg (Val := Elt F)) defs₀ Variants.none c (Pipeline.ucRefs τ sig) [] [hostOps1]
    (fun ops ho op h => by
      obtain rfl := List.mem_singleton.mp ho
      exact Pipeline.sub_ucRefs op ((List.forall_iff_forall_mem.mp hostOps1_sub) op h))
    (fun ops ho op h => by
      obtain rfl := List.mem_singleton.mp ho
      exact (List.forall_iff_forall_mem.mp hostOps1_fresh) op h) (Wexit m c)) $$ [Hb Hheld]
  · isplitl [Hb]; · iexact Hb
    iexact Hheld
  iintro ⟨Hb, Hheld⟩
  rw [Pipeline.chain_nil, wp_pure]
  imodintro
  iapply Hk
  iapply hout
  simp only [List.flatten_cons, List.flatten_nil, List.append_nil]
  iexact Hheld

/-- What a state at the end of a run satisfies: the region's arrays at what the proof data computes, every buffer
    that bypasses the region at what the host lines after it leave. -/
def EndPost (r : PUnit × MemSt nD τ sig (Elt F)) : Prop := ∀ c : Dev nD,
  (∀ w, r.2.mem ((spec0 w).arr.view.loc (c : Thread nD τ)) = (dats m 0 c).arrAt w cfg0.N)
    ∧ ∀ b ∈ Pipeline.restRefs sig spec0, r.2.mem ((c : Thread nD τ).loc b) = Wend m c (Proc.devRef .tc b)

set_option backward.isDefEq.respectTransparency.types false in
/-- From any memory with zero counters every weakly fair execution of the program terminates, nothing faulting,
    in a state satisfying `EndPost`. -/
theorem run_main : θ_run (defs (F := F)) (onTc (τ := τ) (main (F := F))) (s₀ m ρ) (EndPost m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (fun b => Wend m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c : Thread nD τ).loc b) = Wend m c (Proc.devRef .tc b))
    (hY := fun c s' => by
      iintro ⟨-, HU, HSI⟩
      unfold Pipeline.unscopedRest
      imodintro
      iapply (pointsTo_read_all (Pipeline.restRefs sig spec0) (fun b => (c : Thread nD τ).loc b) (fun b => Wend m c (Proc.devRef .tc b)) s')
      isplitl [HU] <;> iassumption)
    (hQ := fun s h c => ⟨(h c).1, (h c).2.2⟩)

/-- info: 'Cert.Kernel.Gen.run_main' depends on axioms: [propext, Classical.choice, Quot.sound] -/
#guard_msgs in #print axioms run_main

/-! ## The arguments end unchanged -/

theorem V_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results

theorem V_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results

/-- No host line after the region, and not the region, writes an argument. -/
theorem Wend_arg0 (c : Dev nD) : Wend m c (Proc.devRef .tc main_arg0) = m ((c : Thread nD τ).loc main_arg0) :=
  (Wend_keep m c main_arg0 (by decide)).trans ((Wexit_ne m c main_arg0 (by decide)).trans (V_arg0 m c))
theorem Wend_arg1 (c : Dev nD) : Wend m c (Proc.devRef .tc main_arg1) = m ((c : Thread nD τ).loc main_arg1) :=
  (Wend_keep m c main_arg1 (by decide)).trans ((Wexit_ne m c main_arg1 (by decide)).trans (V_arg1 m c))

theorem arg0_bypasses : main_arg0 ∈ Pipeline.restRefs sig spec0 := Pipeline.mem_restRefs_of main_arg0 rfl (by decide)
theorem arg1_bypasses : main_arg1 ∈ Pipeline.restRefs sig spec0 := Pipeline.mem_restRefs_of main_arg1 rfl (by decide)
theorem result_bypasses : main_v14 ∈ Pipeline.restRefs sig spec0 := Pipeline.mem_restRefs_of main_v14 rfl (by decide)

/-- The program runs to the end, faults nowhere, and leaves its two arguments as it found them. -/
theorem frame : θ_run (defs (F := F)) (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h c).2 main_arg0 arg0_bypasses).trans (Wend_arg0 m c),
    ((h c).2 main_arg1 arg1_bypasses).trans (Wend_arg1 m c)⟩) (run_main m ρ)

end Cert.Kernel.Gen

end
-- ==== Proof.KIAround.lean ====
/-
  The idealized kernel's program around its one pipelined region: the contents every buffer holds when the
  region is entered (after the host lines that normalise the rows and lay the labels out as a column and
  as a row), the block of each operand a grid point works on, the two conditions of the body in closed
  form (the running totals are reset at the first of the 64 points and copied out at the last), and where
  the output window is idle.
-/
import proofs.«148472_j22454089023818_1_alg».proof.Proof.Gen.KernelIdeal.Launch
import proofs.«148472_j22454089023818_1_alg».proof.Proof.Gen.KernelIdeal.Skeleton
import proofs.«148472_j22454089023818_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What the core's buffers hold when the region is entered: the launch contents after the host lines
    before the region. -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The running totals are reset: both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondFirst : ∀ t : Fin cfg0.N, condFirst (grid0.coords t) ↔ t.val = 0 :=
  (by decide +kernel : ∀ t : Fin grid0.N, condFirst (grid0.coords t) ↔ t.val = 0)

/-- The totals are copied out: both grid coordinates are at their last value. -/
abbrev condLast (i : grid0.Coords) : Prop := k0_cond2 i = 1#1
theorem hcondLast : ∀ t : Fin cfg0.N, condLast (grid0.coords t) ↔ t.val = 63 :=
  (by decide +kernel : ∀ t : Fin grid0.N, condLast (grid0.coords t) ↔ t.val = 63)

/-- The grid is walked row-major: the first coordinate is the quotient by 8, the second the remainder. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle wherever the totals are not copied out, -/
theorem idle4 : ∀ t : Fin cfg0.N, ¬condLast (grid0.coords t) → cfg0.idle 4 (grid0.coords t) = true := by decide +kernel
/-- and is not written back there; -/
theorem noFlush4 : ∀ t : Fin cfg0.N, ¬condLast (grid0.coords t) → (cfg0.win 4).flush t = false := by decide +kernel
/-- at the last point it is live. -/
theorem live4 : ∀ t : Fin cfg0.N, condLast (grid0.coords t) → cfg0.idle 4 (grid0.coords t) = false := by decide +kernel

/-! ## The memrefs the body is called with -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)
/-- The buffer of the running totals. -/
abbrev scM : Memref sig .tc .vmem S8x128 .f32 := Memref.whole cc0_scratch0

/-- What the region's invariant hands the body besides the windows: the totals' buffer at some contents, and
    the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Gen

end
-- ==== Proof.KIStep.lean ====
/-
  One grid point's update of the running totals, as one pure function of the four input blocks and of what
  the totals' buffer held: the body's last store writes it.
-/
import proofs.«148472_j22454089023818_1_alg».proof.Proof.Gen.KernelIdeal.Skeleton
import Idealize.ShloMosaic.Lib.Pipeline.FrameBody
import Idealize.ShloMosaic.Lib.Pipeline.Value

noncomputable section

namespace Cert.KernelIdeal.Gen

open Idealize.ShloMosaic Idealize.SL.Sem

variable {F : FTy → Type} [FloatOps F]

/-- A buffer read back after stores the last of which covers it whole holds that store's value. -/
theorem read_whole_store_last {sig' : RefSig} {κ : Kind} {sp : Space} {Val : EltTy → Type} [∀ e, Nonempty (Val e)] {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩), View.canon_cons_unit_zero h]

/-- The two zero offsets of a whole-buffer access. -/
theorem off00 : (![0, 0] : Fin 2 → Nat) = fun _ => 0 := by
  funext a; match a with | ⟨0, _⟩ => rfl | ⟨1, _⟩ => rfl

/-- One grid point's update of the running totals: the tile's equal-label sum is added at entry (0, 0) and the
    tile's total less that sum at entry (0, 1). -/
def stepOf (x0 : Vec F S1024x512 .bf16) (x1 : Vec F S1024x512 .bf16) (x2 : Vec F S1024x1 .i32) (x3 : Vec F S1x1024 .i32)
    (S : Vec F S8x128 .f32) : Vec F S8x128 .f32 :=
  k0_pay1 (iota .tc S8x128 32 [0] iota_S8x128_d0_w32) (iota .tc S8x128 32 [1] iota_S8x128_d1_w32)
    (k0_pay5 x0 x1 x2 x3) (k0_pay6 x0 x1 x2 x3) S

end Cert.KernelIdeal.Gen

end
-- ==== Proof.KIBody.lean ====
/-
  The kernel body on any staging memrefs, in its three cases: at the first grid point it zeroes the totals'
  buffer and then updates it; at a later point it updates what the buffer held; at the last point it also
  copies the updated totals into the output window's buffer.  In every case the four input buffers are
  only read.
-/
import proofs.«148472_j22454089023818_1_alg».proof.Proof.KIAround
import proofs.«148472_j22454089023818_1_alg».proof.Proof.KIStep

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point that is neither the first nor the last: the totals' buffer goes from `S` to its update. -/
theorem body_mid (c : Dev nD) (i : grid0.Coords)
    (a2 : Memref sig .tc .vmem S1024x512 .bf16) (h2 : a2.IsWhole) (a3 : Memref sig .tc .vmem S1024x512 .bf16) (h3 : a3.IsWhole)
    (a4 : Memref sig .tc .vmem S1024x1 .i32) (h4 : a4.IsWhole) (a5 : Memref sig .tc .vmem S1x1024 .i32) (h5 : a5.IsWhole)
    (a6 : Memref sig .tc .vmem S8x128 .f32) (h6 : a6.IsWhole) (a7 : Memref sig .tc .vmem S8x128 .f32) (h7 : a7.IsWhole)
    (hc1 : ¬condFirst i) (hc2 : ¬condLast i) (x0 : Vec F S1024x512 .bf16) (x1 : Vec F S1024x512 .bf16) (x2 : Vec F S1024x1 .i32) (x3 : Vec F S1x1024 .i32) (S : Vec F S8x128 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a7 fullShare S
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a7 fullShare (stepOf x0 x1 x2 x3 S)) -∗ K ⟨⟩))
      ⊢ wp frame (wpE (defs₀ (F := F)) Variants.none c none) E (cc0__margin_loss_kernel i a2 h2 a3 h3 a4 h4 a5 h5 a6 h6 a7 h7) K := by
  simp only [cc0__margin_loss_kernel_eq_skeleton]; unfold cc0__margin_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := h2.eq_unread hf0; obtain rfl := h3.eq_unread hf1; obtain rfl := h4.eq_unread hf2; obtain rfl := h5.eq_unread hf3
  obtain rfl := h7.eq_unread hfs
  sl_exec (disch := first | exact hc1 | exact hc2)
  sl_step
  iapply Hk
  isplitl [H0]
  · iexists _; isplitr
    · ipureintro; exact h2.read_unread _
    iexact H0
  isplitl [H1]
  · iexists _; isplitr
    · ipureintro; exact h3.read_unread _
    iexact H1
  isplitl [H2]
  · iexists _; isplitr
    · ipureintro; exact h4.read_unread _
    iexact H2
  isplitl [H3]
  · iexists _; isplitr
    · ipureintro; exact h5.read_unread _
    iexact H3
  iexists _; isplitr
  swap
  · iexact HS
  ipureintro
  refine (read_whole_store_last _ _ off00 _ _ _).trans ?_
  simp only [View.readAt_eq_ld, h2.read_unread, h3.read_unread, h4.read_unread, h5.read_unread, h7.read_unread,
    View.ld_unit_zero (S := S1024x512) off00, View.ld_unit_zero (S := S1024x1) off00, View.ld_unit_zero (S := S1x1024) off00,
    View.ld_unit_zero (S := S8x128) off00]
  rfl

set_option maxHeartbeats 1000000 in
/-- The first point: whatever the totals' buffer held, it ends at the update of the zeroed buffer. -/
theorem body_first (c : Dev nD) (i : grid0.Coords)
    (a2 : Memref sig .tc .vmem S1024x512 .bf16) (h2 : a2.IsWhole) (a3 : Memref sig .tc .vmem S1024x512 .bf16) (h3 : a3.IsWhole)
    (a4 : Memref sig .tc .vmem S1024x1 .i32) (h4 : a4.IsWhole) (a5 : Memref sig .tc .vmem S1x1024 .i32) (h5 : a5.IsWhole)
    (a6 : Memref sig .tc .vmem S8x128 .f32) (h6 : a6.IsWhole) (a7 : Memref sig .tc .vmem S8x128 .f32) (h7 : a7.IsWhole)
    (hc1 : condFirst i) (hc2 : ¬condLast i) (x0 : Vec F S1024x512 .bf16) (x1 : Vec F S1024x512 .bf16) (x2 : Vec F S1024x1 .i32) (x3 : Vec F S1x1024 .i32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a7 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a7 fullShare (stepOf x0 x1 x2 x3 k0_pay2)) -∗ K ⟨⟩))
      ⊢ wp frame (wpE (defs₀ (F := F)) Variants.none c none) E (cc0__margin_loss_kernel i a2 h2 a3 h3 a4 h4 a5 h5 a6 h6 a7 h7) K := by
  simp only [cc0__margin_loss_kernel_eq_skeleton]; unfold cc0__margin_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := h2.eq_unread hf0; obtain rfl := h3.eq_unread hf1; obtain rfl := h4.eq_unread hf2; obtain rfl := h5.eq_unread hf3
  sl_exec (disch := first | exact hc1 | exact hc2)
  sl_step
  iapply Hk
  isplitl [H0]
  · iexists _; isplitr
    · ipureintro; exact h2.read_unread _
    iexact H0
  isplitl [H1]
  · iexists _; isplitr
    · ipureintro; exact h3.read_unread _
    iexact H1
  isplitl [H2]
  · iexists _; isplitr
    · ipureintro; exact h4.read_unread _
    iexact H2
  isplitl [H3]
  · iexists _; isplitr
    · ipureintro; exact h5.read_unread _
    iexact H3
  iexists _; isplitr
  swap
  · iexact HS
  ipureintro
  refine (read_whole_store_last _ _ off00 _ _ _).trans ?_
  simp only [View.readAt_eq_ld, h2.read_unread, h3.read_unread, h4.read_unread, h5.read_unread,
    View.ld_unit_zero (S := S1024x512) off00, View.ld_unit_zero (S := S1024x1) off00, View.ld_unit_zero (S := S1x1024) off00,
    View.ld_unit_zero (S := S8x128) off00]
  unfold stepOf
  refine congrArg (k0_pay1 _ _ _ _) ?_
  delta body_first.sl.v54 body_first.sl.HS_1
  exact View.readCov_unit_zero _ off00 _ _

set_option maxHeartbeats 1000000 in
/-- The last point: the totals' buffer goes from `S` to its update, and the output window's buffer, whatever it
    held, ends at the same. -/
theorem body_last (c : Dev nD) (i : grid0.Coords)
    (a2 : Memref sig .tc .vmem S1024x512 .bf16) (h2 : a2.IsWhole) (a3 : Memref sig .tc .vmem S1024x512 .bf16) (h3 : a3.IsWhole)
    (a4 : Memref sig .tc .vmem S1024x1 .i32) (h4 : a4.IsWhole) (a5 : Memref sig .tc .vmem S1x1024 .i32) (h5 : a5.IsWhole)
    (a6 : Memref sig .tc .vmem S8x128 .f32) (h6 : a6.IsWhole) (a7 : Memref sig .tc .vmem S8x128 .f32) (h7 : a7.IsWhole)
    (hc1 : ¬condFirst i) (hc2 : condLast i) (x0 : Vec F S1024x512 .bf16) (x1 : Vec F S1024x512 .bf16) (x2 : Vec F S1024x1 .i32) (x3 : Vec F S1x1024 .i32) (S : Vec F S8x128 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ owns (c : Thread nD τ) a7 fullShare S
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare (stepOf x0 x1 x2 x3 S)
            ∗ owns (c : Thread nD τ) a7 fullShare (stepOf x0 x1 x2 x3 S)) -∗ K ⟨⟩))
      ⊢ wp frame (wpE (defs₀ (F := F)) Variants.none c none) E (cc0__margin_loss_kernel i a2 h2 a3 h3 a4 h4 a5 h5 a6 h6 a7 h7) K := by
  simp only [cc0__margin_loss_kernel_eq_skeleton]; unfold cc0__margin_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  obtain rfl := h2.eq_unread hf0; obtain rfl := h3.eq_unread hf1; obtain rfl := h4.eq_unread hf2; obtain rfl := h5.eq_unread hf3
  obtain rfl := h7.eq_unread hfs
  sl_exec (disch := first | exact hc1 | exact hc2)
  sl_step
  iapply Hk
  isplitl [H0]
  · iexists _; isplitr
    · ipureintro; exact h2.read_unread _
    iexact H0
  isplitl [H1]
  · iexists _; isplitr
    · ipureintro; exact h3.read_unread _
    iexact H1
  isplitl [H2]
  · iexists _; isplitr
    · ipureintro; exact h4.read_unread _
    iexact H2
  isplitl [H3]
  · iexists _; isplitr
    · ipureintro; exact h5.read_unread _
    iexact H3
  isplitl [H6]
  · iexists _; isplitr
    swap
    · iexact H6
    ipureintro
    refine (read_whole_store_last _ _ off00 _ _ _).trans ?_
    delta body_last.sl.v64 body_last.sl.HS_1
    refine (View.readCov_unit_zero _ off00 _ _).trans ?_
    simp only [View.readAt_eq_ld, h2.read_unread, h3.read_unread, h4.read_unread, h5.read_unread, h7.read_unread,
    View.ld_unit_zero (S := S1024x512) off00, View.ld_unit_zero (S := S1024x1) off00, View.ld_unit_zero (S := S1x1024) off00,
    View.ld_unit_zero (S := S8x128) off00]
    rfl
  iexists _; isplitr
  swap
  · iexact HS
  ipureintro
  delta body_last.sl.HS_1
  refine (read_whole_store_last _ _ off00 _ _ _).trans ?_
  simp only [View.readAt_eq_ld, h2.read_unread, h3.read_unread, h4.read_unread, h5.read_unread, h7.read_unread,
    View.ld_unit_zero (S := S1024x512) off00, View.ld_unit_zero (S := S1024x1) off00, View.ld_unit_zero (S := S1x1024) off00,
    View.ld_unit_zero (S := S8x128) off00]
  rfl

end Cert.KernelIdeal.Gen

end
-- ==== Proof.KIData.lean ====
/-
  The proof data of the region and the body's obligation at every grid point.

  The running totals' buffer is carried from point to point: after point 0 it holds one update of the
  zeroed buffer, after point n + 1 one update of what point n left (`totalsAt`).  The four input windows
  hold their blocks at every point; the output window is idle until the last point, where the totals
  are copied into it.  The normalised matrix is handed to two windows at once, so each holds half of it.
-/
import proofs.«148472_j22454089023818_1_alg».proof.Proof.KIBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The totals, point by point -/

/-- What the totals' buffer holds after the body at point `n`. -/
def totalsAt (c : Dev nD) : (n : ℕ) → n < cfg0.N → Vec F S8x128 .f32
  | 0, h => stepOf (iblk m c 0 ⟨0, h⟩) (iblk m c 1 ⟨0, h⟩) (iblk m c 2 ⟨0, h⟩) (iblk m c 3 ⟨0, h⟩) k0_pay2
  | n + 1, h => stepOf (iblk m c 0 ⟨n + 1, h⟩) (iblk m c 1 ⟨n + 1, h⟩) (iblk m c 2 ⟨n + 1, h⟩) (iblk m c 3 ⟨n + 1, h⟩)
      (totalsAt c n (Nat.lt_of_succ_lt h))

theorem totalsAt_first (c : Dev nD) (t : Fin cfg0.N) (h : t.val = 0) :
    totalsAt m c t.val t.isLt = stepOf (iblk m c 0 t) (iblk m c 1 t) (iblk m c 2 t) (iblk m c 3 t) k0_pay2 := by
  obtain ⟨n, hn⟩ := t
  cases n with
  | zero => rfl
  | succ n => exact absurd h (Nat.succ_ne_zero n)

theorem totalsAt_later (c : Dev nD) (t : Fin cfg0.N) (h : t.val ≠ 0) :
    totalsAt m c t.val t.isLt = stepOf (iblk m c 0 t) (iblk m c 1 t) (iblk m c 2 t) (iblk m c 3 t)
      (totalsAt m c (t.val - 1) (Nat.lt_of_le_of_lt (Nat.sub_le _ _) t.isLt)) := by
  obtain ⟨n, hn⟩ := t
  cases n with
  | zero => exact absurd rfl h
  | succ n => rfl

/-! ## The invariant between points -/

/-- Before the first point the totals' buffer holds anything; afterwards what the point before left. -/
def PhiS (c : Dev nD) : (n : ℕ) → n ≤ cfg0.N → sProp 𝕄
  | 0, _ => Pipeline.ΦA spec0 c
  | n + 1, hn => iprop(iprop(owns (c : Thread nD τ) scM fullShare (totalsAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (totalsAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (totalsAt m c (n - 1) (by omega))) ∗ (∃ r, prngReg c r)) := by
  cases n with
  | zero => exact absurd rfl hz
  | succ n => rfl

/-! ## The proof data -/

/-- The arrays as the region finds them; the inputs' buffers at their blocks, the output's at the totals;
    the matrix shared by its two windows half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => totalsAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = totalsAt m c t.val t.isLt := by dsimp only [dats]

/-- An input's current buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]

set_option maxHeartbeats 4800000 in
/-- The body at any point: the first point resets the totals and updates them, a later one updates what the
    point before left, and the last also copies them into the output window's buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases hF : t.val = 0
  · have hL : ¬condLast (grid0.coords t) := fun h => by have := (hcondLast t).mp h; omega
    rw [Dat.leavesExact_idle (dats m 0 c) 4 t (idle4 t hL) (noFlush4 t hL)]
    rw [totalsAt_first m c t hF]
    rw [PhiS_castSucc m c t, PhiS_zero m c _ _ hF, PhiA0_eq]
    iintro ⟨⟨HS, Hg⟩, Ho, ⟨%d0, H0⟩, ⟨%d1, H1⟩, ⟨%d2, H2⟩, ⟨%d3, H3⟩, H4⟩
    iapply (body_first c (grid0.coords t) _ _ _ _ _ _ _ _ _ _ _ _ ((hcondFirst t).mpr hF) hL
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hF' : ¬condFirst (grid0.coords t) := fun h => hF ((hcondFirst t).mp h)
    rw [totalsAt_later m c t hF]
    rw [PhiS_castSucc m c t, PhiS_pos m c _ _ hF]
    by_cases hL : t.val = 63
    · have hL' : condLast (grid0.coords t) := (hcondLast t).mpr hL
      rw [show (dats m 0 c).leavesExact 4 t = owns (c : Thread nD τ) (ms4 t) fullShare ((dats m 0 c).after 4 t) from by
        unfold Dat.leavesExact; rw [live4 t hL'], after4, totalsAt_later m c t hF]
      iintro ⟨⟨HS, Hg⟩, Ho, ⟨%d0, H0⟩, ⟨%d1, H1⟩, ⟨%d2, H2⟩, ⟨%d3, H3⟩, ⟨%d4, H4⟩⟩
      iapply (body_last c (grid0.coords t) _ _ _ _ _ _ _ _ _ _ _ _ hF' hL'
        (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · have hL' : ¬condLast (grid0.coords t) := fun h => hL ((hcondLast t).mp h)
      rw [Dat.leavesExact_idle (dats m 0 c) 4 t (idle4 t hL') (noFlush4 t hL')]
      iintro ⟨⟨HS, Hg⟩, Ho, ⟨%d0, H0⟩, ⟨%d1, H1⟩, ⟨%d2, H2⟩, ⟨%d3, H3⟩, H4⟩
      iapply (body_mid c (grid0.coords t) _ _ _ _ _ _ _ _ _ _ _ _ hF' hL'
        (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the totals' buffer holds is forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨HS, Hg⟩
  isplitl [HS]
  · iexists _; iexact HS
  iexact Hg

end Cert.KernelIdeal.Gen

end
-- ==== Proof.KIExit.lean ====
/-
  The run of the whole program at any float instance.

  The normalised matrix is one array handed to two windows; each window holds half of it while the region
  runs, and the halves are joined again when the host lines after the region need the arrays whole.  The
  region leaves its one output array at what the last grid point copied out; the six host lines after it read
  that array and write six fresh buffers.  The run ends with every array of the region at what the proof data
  computes and every other buffer at what those lines leave.
-/
import proofs.«148472_j22454089023818_1_alg».proof.Proof.KIData

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows -/

/-- Five windows, four distinct arrays. -/
theorem arrImage : Finset.univ.image (Pipeline.arrRef spec0) = ([main_v5, main_v6, main_v7, main_v8] : List (Ref sig .tc)).toFinset := by decide

theorem arrBufs_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)) := by
  unfold Pipeline.arrBufs
  rw [bigSep_eq_bigSepL_of_eq [main_v5, main_v6, main_v7, main_v8] arrImage (by decide)]
  rfl

/-- A buffer held whole is held as two halves, and back. -/
theorem halves (c : Dev nD) (b : Ref sig .tc) (f : Buf (Elt F) ((c : Thread nD τ).loc b)) :
    ((((c : Thread nD τ).loc b) ↦{fullShare} f) : sProp 𝕄) ⊣⊢ iprop((((c : Thread nD τ).loc b) ↦{fullShare.left} f) ∗ (((c : Thread nD τ).loc b) ↦{fullShare.right} f)) :=
  pointsTo_share (IsOp.posShare_halves fullShare).mem_op

/-- The proof data's arrays, window by window: the matrix as two halves. -/
theorem arrays_eq' (c : Dev nD) (Fs : (w : Fin cfg0.W) → Buf (Elt F) ((cfg0.win w).arr.view.loc (c : Thread nD τ))) :
    (dats m 0 c).arrays Fs
      = iprop((((c : Thread nD τ).loc main_v5) ↦{fullShare.left} Fs 0) ∗ (((c : Thread nD τ).loc main_v5) ↦{fullShare.right} Fs 1)
          ∗ (((c : Thread nD τ).loc main_v6) ↦{fullShare} Fs 2) ∗ (((c : Thread nD τ).loc main_v7) ↦{fullShare} Fs 3)
          ∗ (((c : Thread nD τ).loc main_v8) ↦{fullShare} Fs 4)) := by
  unfold Dat.arrays
  rw [bigSep_W0]
  have e0 := congrArg (fun s => ((((c : Thread nD τ).loc main_v5) ↦[s]{fullShare.left} Fs 0) : sProp 𝕄)) (arr_whole0 0).set_eq_univ
  have e1 := congrArg (fun s => ((((c : Thread nD τ).loc main_v5) ↦[s]{fullShare.right} Fs 1) : sProp 𝕄)) (arr_whole0 1).set_eq_univ
  have e2 := congrArg (fun s => ((((c : Thread nD τ).loc main_v6) ↦[s]{fullShare} Fs 2) : sProp 𝕄)) (arr_whole0 2).set_eq_univ
  have e3 := congrArg (fun s => ((((c : Thread nD τ).loc main_v7) ↦[s]{fullShare} Fs 3) : sProp 𝕄)) (arr_whole0 3).set_eq_univ
  have e4 := congrArg (fun s => ((((c : Thread nD τ).loc main_v8) ↦[s]{fullShare} Fs 4) : sProp 𝕄)) (arr_whole0 4).set_eq_univ
  exact congr (congrArg BI.sep e0) (congr (congrArg BI.sep e1) (congr (congrArg BI.sep e2) (congr (congrArg BI.sep e3) e4)))

/-- At the region's entry the buffers behind the arrays, each whole, make the proof data's arrays. -/
theorem hsplit (c : Dev nD) : (Pipeline.arrBufs spec0 c (V m c) : sProp 𝕄) ⊢ (dats m 0 c).arrays ((dats m 0 c).arrAt · 0) := by
  rw [arrBufs_eq, arrays_eq']
  iintro ⟨H5, H6, H7, H8⟩
  ihave H5' := (halves c main_v5 _).1 $$ H5
  icases H5' with ⟨H5l, H5r⟩
  isplitl [H5l]; · iexact H5l
  isplitl [H5r]; · iexact H5r
  isplitl [H6]; · iexact H6
  isplitl [H7]; · iexact H7
  iexact H8

/-! ## The region's exit and the lines after it -/

open Classical in
/-- What the core's buffers hold when the region is left: the output array at what the proof data computes, every
    other buffer as the region found it. -/
def Wexit (c : Dev nD) : Valuation τ sig (Elt F) :=
  Function.update (V0 m c) (Proc.devRef .tc main_v8) ((dats m 0 c).arrAt 4 cfg0.N)

/-- What they hold after the six host lines that follow the region. -/
def Wend (c : Dev nD) : Valuation τ sig (Elt F) := StableHlo.after hostOps1 (Wexit m c)

theorem Wexit_out (c : Dev nD) : Wexit m c (Proc.devRef .tc main_v8) = (dats m 0 c).arrAt 4 cfg0.N := by
  unfold Wexit; exact Function.update_self ..

theorem Wexit_ne (c : Dev nD) (b : Ref sig .tc) (h : b ≠ main_v8) : Wexit m c (Proc.devRef .tc b) = V m c b := by
  unfold Wexit; exact Function.update_of_ne (StableHlo.devRef_ne_of_ne h) ..

/-- The lines after the region write none of the region's arrays. -/
theorem Wend_keep (c : Dev nD) (b : Ref sig .tc) (hb : b ∉ [main_v9, main_v10, main_v11, main_v12, main_v13, main_v14]) :
    Wend m c (Proc.devRef .tc b) = Wexit m c (Proc.devRef .tc b) := by
  unfold Wend
  refine StableHlo.after_of_forall_not_mem _ _ fun op hop => ?_
  simp only [hostOps1, List.mem_cons, List.mem_nil_iff, or_false] at hop
  rcases hop with rfl | rfl | rfl | rfl | rfl | rfl <;>
    simp only [StableHlo.unary_writes, StableHlo.binary_writes, StableHlo.reshape_writes, Finset.mem_singleton] <;>
    exact StableHlo.devRef_ne_of_ne (fun e => hb (by subst e; simp))

theorem exit0 (c : Dev nD) : (dats m 0 c).arrAt 0 cfg0.N = Wexit m c (Proc.devRef .tc main_v5) :=
  ((dats m 0 c).arrAt_in 0 rfl _).trans ((A_eq m c 0).trans (Wexit_ne m c main_v5 (by decide)).symm)
theorem exit1 (c : Dev nD) : (dats m 0 c).arrAt 1 cfg0.N = Wexit m c (Proc.devRef .tc main_v5) :=
  ((dats m 0 c).arrAt_in 1 rfl _).trans ((A_eq m c 1).trans (Wexit_ne m c main_v5 (by decide)).symm)
theorem exit2 (c : Dev nD) : (dats m 0 c).arrAt 2 cfg0.N = Wexit m c (Proc.devRef .tc main_v6) :=
  ((dats m 0 c).arrAt_in 2 rfl _).trans ((A_eq m c 2).trans (Wexit_ne m c main_v6 (by decide)).symm)
theorem exit3 (c : Dev nD) : (dats m 0 c).arrAt 3 cfg0.N = Wexit m c (Proc.devRef .tc main_v7) :=
  ((dats m 0 c).arrAt_in 3 rfl _).trans ((A_eq m c 3).trans (Wexit_ne m c main_v7 (by decide)).symm)

/-- At the exit the proof data's arrays are the buffers behind them, each whole: the two halves of the matrix
    hold the same contents and join. -/
theorem exit_arrays (c : Dev nD) (W : Valuation τ sig (Elt F))
    (h5 : W (Proc.devRef .tc main_v5) = Wexit m c (Proc.devRef .tc main_v5)) (h6 : W (Proc.devRef .tc main_v6) = Wexit m c (Proc.devRef .tc main_v6))
    (h7 : W (Proc.devRef .tc main_v7) = Wexit m c (Proc.devRef .tc main_v7)) (h8 : W (Proc.devRef .tc main_v8) = Wexit m c (Proc.devRef .tc main_v8)) :
    ((dats m 0 c).arrays ((dats m 0 c).arrAt · cfg0.N) : sProp 𝕄) ⊣⊢ Pipeline.arrBufs spec0 c (fun b => W (Proc.devRef .tc b)) := by
  rw [arrBufs_eq, arrays_eq', exit0, exit1, exit2, exit3, h5, h6, h7, h8, Wexit_out]
  constructor
  · iintro ⟨H5l, H5r, H6, H7, H8⟩
    isplitl [H5l H5r]
    · iapply (halves c main_v5 _).2
      isplitl [H5l]; · iexact H5l
      iexact H5r
    isplitl [H6]; · iexact H6
    isplitl [H7]; · iexact H7
    iexact H8
  · iintro ⟨H5, H6, H7, H8⟩
    ihave H5' := (halves c main_v5 _).1 $$ H5
    icases H5' with ⟨H5l, H5r⟩
    isplitl [H5l]; · iexact H5l
    isplitl [H5r]; · iexact H5r
    isplitl [H6]; · iexact H6
    isplitl [H7]; · iexact H7
    iexact H8

/-- A buffer that bypasses the region is none of its arrays. -/
theorem rest_ne_out (b : Ref sig .tc) (hb : b ∈ Pipeline.restRefs sig spec0) : b ≠ main_v8 := fun e =>
  (Finset.mem_sdiff.mp hb).2 (e ▸ (by rw [arrImage]; decide))

theorem rest_not_written (b : Ref sig .tc) (hb : b ∈ Finset.univ.image (Pipeline.arrRef spec0)) :
    b ∉ [main_v9, main_v10, main_v11, main_v12, main_v13, main_v14] := by
  rw [arrImage] at hb; revert b; decide

end Cert.KernelIdeal.Gen

end
-- ==== Proof.KIRun.lean ====
/-
  The run of the whole program, at any float instance: the host lines before the region, the region over its
  64 grid points, the host lines after it.  Every weakly fair execution terminates without a fault; the
  region's arrays end at what the proof data computes from the body's stores, every other buffer at what the
  host lines leave.
-/
import proofs.«148472_j22454089023818_1_alg».proof.Proof.KIExit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region run from the region's exit: they read the output array, held whole, and write
    six buffers that bypass the region; the arrays come back as they were. -/
theorem htail (c : Dev nD) (Q' : PUnit → sProp 𝕄) :
    iprop((iprop((dats m 0 c).arrays ((dats m 0 c).arrAt · cfg0.N)
              ∗ Pipeline.unscopedRest spec0 c (fun b => Wend m c (Proc.devRef .tc b))) -∗ Q' ⟨⟩)
        ∗ boundary (c : Thread nD τ) ∗ (dats m 0 c).arrays ((dats m 0 c).arrAt · cfg0.N)
        ∗ Pipeline.unscopedRest spec0 c (V m c))
      ⊢ wp frame (wpE (defs (F := F)) (Variants.lift Variants.none) (c : Thread nD τ) none) Set.univ
          (Pipeline.chain [StableHlo.seq hostOps1]) Q' := by
  classical
  have hV : (Pipeline.unscopedRest spec0 c (V m c) : sProp 𝕄) = Pipeline.unscopedRest spec0 c (fun b => Wexit m c (Proc.devRef .tc b)) := by
    unfold Pipeline.unscopedRest
    exact bigSep_congr fun b hb => by simp only [Wexit_ne m c b (rest_ne_out b hb)]
  have hin : (iprop((dats m 0 c).arrays ((dats m 0 c).arrAt · cfg0.N) ∗ Pipeline.unscopedRest spec0 c (V m c)) : sProp 𝕄)
      ⊢ StableHlo.held (c : Thread nD τ) (Pipeline.ucRefs τ sig) (Wexit m c) := by
    rw [← Pipeline.unscopedBufs_held (Ix := Unit) (Name := ℕ) (U := UR sig nD τ) (Lvl := ℕ) c (Wexit m c),
      Pipeline.unscopedBufs_split₀ cfgs 0 winFacts₀0.arr_unscoped c, hV]
    iintro ⟨HA, HR⟩
    isplitl [HA]
    · iapply (exit_arrays m c (Wexit m c) rfl rfl rfl rfl).1
      iexact HA
    iexact HR
  have hout : (StableHlo.held (c : Thread nD τ) (Pipeline.ucRefs τ sig) (Wend m c) : sProp 𝕄)
      ⊢ iprop((dats m 0 c).arrays ((dats m 0 c).arrAt · cfg0.N) ∗ Pipeline.unscopedRest spec0 c (fun b => Wend m c (Proc.devRef .tc b))) := by
    rw [← Pipeline.unscopedBufs_held (Ix := Unit) (Name := ℕ) (U := UR sig nD τ) (Lvl := ℕ) c (Wend m c),
      Pipeline.unscopedBufs_split₀ cfgs 0 winFacts₀0.arr_unscoped c]
    iintro ⟨HA, HR⟩
    isplitl [HA]
    · iapply (exit_arrays m c (Wend m c) (Wend_keep m c main_v5 (by decide)) (Wend_keep m c main_v6 (by decide))
        (Wend_keep m c main_v7 (by decide)) (Wend_keep m c main_v8 (by decide))).2
      iexact HA
    iexact HR
  iintro ⟨Hk, Hb, HA, HR⟩
  ihave Hheld := hin $$ [HA HR]
  · isplitl [HA]; · iexact HA
    iexact HR
  rw [← List.append_nil ([StableHlo.seq hostOps1] : List (Prog (TpuEff nD τ sig (Elt F) (Pipeline.Sig Λ₀ (Fin 1) fun p => (pcfgs (F := F) p).Adm) .tc) PUnit))]
  iapply (Pipeline.wp_seqs_then (fun q => (cfgs q).toPCfg (Val := Elt F)) defs₀ Variants.none c (Pipeline.ucRefs τ sig) [] [hostOps1]
    (fun ops ho op h => by
      obtain rfl := List.mem_singleton.mp ho
      exact Pipeline.sub_ucRefs op ((List.forall_iff_forall_mem.mp hostOps1_sub) op h))
    (fun ops ho op h => by
      obtain rfl := List.mem_singleton.mp ho
      exact (List.forall_iff_forall_mem.mp hostOps1_fresh) op h) (Wexit m c)) $$ [Hb Hheld]
  · isplitl [Hb]; · iexact Hb
    iexact Hheld
  iintro ⟨Hb, Hheld⟩
  rw [Pipeline.chain_nil, wp_pure]
  imodintro
  iapply Hk
  iapply hout
  simp only [List.flatten_cons, List.flatten_nil, List.append_nil]
  iexact Hheld

/-- What a state at the end of a run satisfies: the region's arrays at what the proof data computes, every buffer
    that bypasses the region at what the host lines after it leave. -/
def EndPost (r : PUnit × MemSt nD τ sig (Elt F)) : Prop := ∀ c : Dev nD,
  (∀ w, r.2.mem ((spec0 w).arr.view.loc (c : Thread nD τ)) = (dats m 0 c).arrAt w cfg0.N)
    ∧ ∀ b ∈ Pipeline.restRefs sig spec0, r.2.mem ((c : Thread nD τ).loc b) = Wend m c (Proc.devRef .tc b)

set_option backward.isDefEq.respectTransparency.types false in
/-- From any memory with zero counters every weakly fair execution of the program terminates, nothing faulting,
    in a state satisfying `EndPost`. -/
theorem run_main : θ_run (defs (F := F)) (onTc (τ := τ) (main (F := F))) (s₀ m ρ) (EndPost m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (fun b => Wend m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c : Thread nD τ).loc b) = Wend m c (Proc.devRef .tc b))
    (hY := fun c s' => by
      iintro ⟨-, HU, HSI⟩
      unfold Pipeline.unscopedRest
      imodintro
      iapply (pointsTo_read_all (Pipeline.restRefs sig spec0) (fun b => (c : Thread nD τ).loc b) (fun b => Wend m c (Proc.devRef .tc b)) s')
      isplitl [HU] <;> iassumption)
    (hQ := fun s h c => ⟨(h c).1, (h c).2.2⟩)

/-- info: 'Cert.KernelIdeal.Gen.run_main' depends on axioms: [propext, Classical.choice, Quot.sound] -/
#guard_msgs in #print axioms run_main

/-! ## The arguments end unchanged -/

theorem V_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results

theorem V_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results

/-- No host line after the region, and not the region, writes an argument. -/
theorem Wend_arg0 (c : Dev nD) : Wend m c (Proc.devRef .tc main_arg0) = m ((c : Thread nD τ).loc main_arg0) :=
  (Wend_keep m c main_arg0 (by decide)).trans ((Wexit_ne m c main_arg0 (by decide)).trans (V_arg0 m c))
theorem Wend_arg1 (c : Dev nD) : Wend m c (Proc.devRef .tc main_arg1) = m ((c : Thread nD τ).loc main_arg1) :=
  (Wend_keep m c main_arg1 (by decide)).trans ((Wexit_ne m c main_arg1 (by decide)).trans (V_arg1 m c))

theorem arg0_bypasses : main_arg0 ∈ Pipeline.restRefs sig spec0 := Pipeline.mem_restRefs_of main_arg0 rfl (by decide)
theorem arg1_bypasses : main_arg1 ∈ Pipeline.restRefs sig spec0 := Pipeline.mem_restRefs_of main_arg1 rfl (by decide)
theorem result_bypasses : main_v14 ∈ Pipeline.restRefs sig spec0 := Pipeline.mem_restRefs_of main_v14 rfl (by decide)

/-- The program runs to the end, faults nowhere, and leaves its two arguments as it found them. -/
theorem frame : θ_run (defs (F := F)) (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h c).2 main_arg0 arg0_bypasses).trans (Wend_arg0 m c),
    ((h c).2 main_arg1 arg1_bypasses).trans (Wend_arg1 m c)⟩) (run_main m ρ)

end Cert.KernelIdeal.Gen

end
-- ==== Proof.Spec.lean ====
/-
  The quantities both programs compute, as plain sums over the extended reals.

  For rows n_r (r < 8192) of a matrix and labels lab_r, every ordered pair (r, s) carries the weight
  E r s = exp (30 · (⟨n_r, n_s⟩ − 0.2)); the weights are summed over the pairs with equal labels
  (`posSum`) and over the pairs with different labels (`negSum`).
  One program sums all 8192 × 8192 pairs at once.  The other walks the 8 × 8 tiles of 1024 × 1024 pairs in
  row-major order and adds to two running totals, per tile, the tile's equal-label sum and the tile's
  total minus its equal-label sum (`accPos`, `accNeg`).
-/
import Idealize.ShloMosaic.PureOps.Ideal
import Idealize.ShloMosaic.Lib.ValueIdx

noncomputable section

namespace Cert.PairSums

open Idealize.ShloMosaic Idealize.ShloMosaic.ValueIdx

/-- The weight of the pair (r, s): exp (30 · (⟨n_r, n_s⟩ − 0.2)), the two constants at their binary values. -/
def E (n : (⟨2, ![8192, 512]⟩ : Shape).Idx → EReal) (r s : Fin 8192) : EReal :=
  Ideal.exp (Ideal.ofBits .f32 0x41F00000#32 * ((∑ k : Fin 512, n (ix2 r k) * n (ix2 s k)) - Ideal.ofBits .f32 0x3E4CCCCD#32))

/-- The sum of the weights over the pairs with equal labels. -/
def posSum (n : (⟨2, ![8192, 512]⟩ : Shape).Idx → EReal) (lab : (⟨1, ![8192]⟩ : Shape).Idx → BitVec 32) : EReal :=
  ∑ r : Fin 8192, ∑ s : Fin 8192, if lab (ix1 r) = lab (ix1 s) then E n r s else 0

/-- The sum of the weights over the pairs with different labels. -/
def negSum (n : (⟨2, ![8192, 512]⟩ : Shape).Idx → EReal) (lab : (⟨1, ![8192]⟩ : Shape).Idx → BitVec 32) : EReal :=
  ∑ r : Fin 8192, ∑ s : Fin 8192, if lab (ix1 r) = lab (ix1 s) then 0 else E n r s

/-- Row `r` of tile `i`: the tiles are 1024 consecutive rows each. -/
def row (i : Fin 8) (r : Fin 1024) : Fin 8192 := ⟨i.val * 1024 + r.val, by have := i.isLt; have := r.isLt; omega⟩

/-- The equal-label sum of the tile (i, j), for any weights `e` and any relation `M`. -/
def tilePos (e : Fin 8192 → Fin 8192 → EReal) (M : Fin 8192 → Fin 8192 → Prop) [DecidableRel M] (i j : Fin 8) : EReal :=
  ∑ r : Fin 1024, ∑ s : Fin 1024, if M (row i r) (row j s) then e (row i r) (row j s) else 0

/-- The total of the tile (i, j). -/
def tileAll (e : Fin 8192 → Fin 8192 → EReal) (i j : Fin 8) : EReal :=
  ∑ r : Fin 1024, ∑ s : Fin 1024, e (row i r) (row j s)

/-- The tile visited at step `t` of the row-major walk. -/
def tileI (t : ℕ) : Fin 8 := ⟨t / 8 % 8, Nat.mod_lt _ (by decide)⟩
def tileJ (t : ℕ) : Fin 8 := ⟨t % 8, Nat.mod_lt _ (by decide)⟩

/-- The running equal-label total after step `t`. -/
def accPos (e : Fin 8192 → Fin 8192 → EReal) (M : Fin 8192 → Fin 8192 → Prop) [DecidableRel M] : ℕ → EReal
  | 0 => tilePos e M (tileI 0) (tileJ 0)
  | t + 1 => accPos e M t + tilePos e M (tileI (t + 1)) (tileJ (t + 1))

/-- The running different-label total after step `t`: per tile, its total minus its equal-label sum. -/
def accNeg (e : Fin 8192 → Fin 8192 → EReal) (M : Fin 8192 → Fin 8192 → Prop) [DecidableRel M] : ℕ → EReal
  | 0 => tileAll e (tileI 0) (tileJ 0) - tilePos e M (tileI 0) (tileJ 0)
  | t + 1 => accNeg e M t + (tileAll e (tileI (t + 1)) (tileJ (t + 1)) - tilePos e M (tileI (t + 1)) (tileJ (t + 1)))

end Cert.PairSums

end
-- ==== Proof.KIBlocks.lean ====
/-
  The tiled program's operands as the pipelined region finds them.

  Each of the 64 grid points t works on the tile (t / 8, t % 8): the block of the first window is the
  1024 rows of the normalized matrix starting at row (t / 8) · 1024, the block of the second the 1024
  rows starting at (t % 8) · 1024, the third and fourth the same rows of the labels laid out as a
  column and as a row.  The host lines before the region compute the normalized matrix exactly as the
  one-pass program does (the narrowing of the format is the identity on the extended reals) and lay the
  labels out by two reshapes, which move no entry.
-/
import proofs.«148472_j22454089023818_1_alg».proof.Proof.KIAround
import proofs.«148472_j22454089023818_1_alg».proof.Proof.Spec
import proofs.«148472_j22454089023818_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Tiles

open Cert.KernelIdeal Cert.KernelIdeal.Gen Idealize.ShloMosaic Idealize.ShloMosaic.TcCoe Idealize.ShloMosaic.ValueIdx Cert.PairSums
open Idealize.SL.Sem

/-! ## The blocks -/

section Blocks
variable {F : FTy → Type} [FloatOps F]
variable (m : (ℓ : Loc nD τ sig) → Buf (Elt F) ℓ) (c : Dev nD)

/-- The printed index maps over the 64 grid points: the row block of the first and third windows is
    t / 8, the row block of the second and the column block of the fourth is t % 8, every other block
    index is 0. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- There are 64 grid points. -/
theorem point_lt (t : Fin cfg0.N) : t.val < 64 := lt_of_lt_of_eq t.isLt N_0

/-- The first window's block at point t is the rows of tile row t / 8 of the matrix. -/
theorem iblk0_apply (t : Fin cfg0.N) (r : Fin 1024) (k : Fin 512) :
    iblk m c 0 t (ix2 r k) = V m c main_v5 (ix2 (row (tileI t.val) r) k) := by
  obtain ⟨e0, e1, -⟩ := index_facts t
  have ht := point_lt t
  show V m c main_v5 (((cfg0.win 0).blk t).view.emb (ix2 r k)) = V m c main_v5 (ix2 (row (tileI t.val) r) k)
  refine congrArg (V m c main_v5) (funext fun a => Fin.ext ?_)
  match a with
  | ⟨0, _⟩ =>
    show win0_0.index t (0 : Fin 2) * 1024 + 1 * r.val = t.val / 8 % 8 * 1024 + r.val
    omega
  | ⟨1, _⟩ =>
    show win0_0.index t (1 : Fin 2) * 512 + 1 * k.val = k.val
    omega

/-- The second window's block at point t is the rows of tile row t % 8 of the matrix. -/
theorem iblk1_apply (t : Fin cfg0.N) (s : Fin 1024) (k : Fin 512) :
    iblk m c 1 t (ix2 s k) = V m c main_v5 (ix2 (row (tileJ t.val) s) k) := by
  obtain ⟨-, -, e0, e1, -⟩ := index_facts t
  have ht := point_lt t
  show V m c main_v5 (((cfg0.win 1).blk t).view.emb (ix2 s k)) = V m c main_v5 (ix2 (row (tileJ t.val) s) k)
  refine congrArg (V m c main_v5) (funext fun a => Fin.ext ?_)
  match a with
  | ⟨0, _⟩ =>
    show win0_1.index t (0 : Fin 2) * 1024 + 1 * s.val = t.val % 8 * 1024 + s.val
    omega
  | ⟨1, _⟩ =>
    show win0_1.index t (1 : Fin 2) * 512 + 1 * k.val = k.val
    omega

/-- The third window's block at point t is the labels of tile row t / 8, as a column. -/
theorem iblk2_apply (t : Fin cfg0.N) (r : Fin 1024) :
    iblk m c 2 t (ix2 r (0 : Fin 1)) = V m c main_v6 (ix2 (row (tileI t.val) r) (0 : Fin 1)) := by
  obtain ⟨-, -, -, -, e0, e1, -⟩ := index_facts t
  have ht := point_lt t
  show V m c main_v6 (((cfg0.win 2).blk t).view.emb (ix2 r (0 : Fin 1))) = V m c main_v6 (ix2 (row (tileI t.val) r) (0 : Fin 1))
  refine congrArg (V m c main_v6) (funext fun a => Fin.ext ?_)
  match a with
  | ⟨0, _⟩ =>
    show win0_2.index t (0 : Fin 2) * 1024 + 1 * r.val = t.val / 8 % 8 * 1024 + r.val
    omega
  | ⟨1, _⟩ =>
    show win0_2.index t (1 : Fin 2) * 1 + 1 * 0 = 0
    omega

/-- The fourth window's block at point t is the labels of tile row t % 8, as a row. -/
theorem iblk3_apply (t : Fin cfg0.N) (s : Fin 1024) :
    iblk m c 3 t (ix2 (0 : Fin 1) s) = V m c main_v7 (ix2 (0 : Fin 1) (row (tileJ t.val) s)) := by
  obtain ⟨-, -, -, -, -, -, e0, e1⟩ := index_facts t
  have ht := point_lt t
  show V m c main_v7 (((cfg0.win 3).blk t).view.emb (ix2 (0 : Fin 1) s)) = V m c main_v7 (ix2 (0 : Fin 1) (row (tileJ t.val) s))
  refine congrArg (V m c main_v7) (funext fun a => Fin.ext ?_)
  match a with
  | ⟨0, _⟩ =>
    show win0_3.index t (0 : Fin 2) * 1 + 1 * 0 = 0
    omega
  | ⟨1, _⟩ =>
    show win0_3.index t (1 : Fin 2) * 1024 + 1 * s.val = t.val % 8 * 1024 + s.val
    omega

end Blocks

/-! ## The host lines before the region -/

/-- A vector laid out as a column: the entry (i, 0) is the entry i. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

section Host
variable {F : FTy → Type} [FloatOps F]
variable (m : (ℓ : Loc nD τ sig) → Buf (Elt F) ℓ) (c : Dev nD)

/-- The host lines write neither argument: the matrix is as launched, -/
theorem V_arg0 : V m c main_arg0 = m ((c : Thread nD τ).loc main_arg0) := by
  dsimp only [V, V0]
  simp only [hostOps0, hostOps0_1, List.flatten_cons, List.flatten_nil, List.append_nil, List.cons_append, List.nil_append]
  after_results

/-- and so are the labels. -/
theorem V_arg1 : V m c main_arg1 = m ((c : Thread nD τ).loc main_arg1) := by
  dsimp only [V, V0]
  simp only [hostOps0, hostOps0_1, List.flatten_cons, List.flatten_nil, List.append_nil, List.cons_append, List.nil_append]
  after_results

/-- The labels as a column are the labels reshaped, -/
theorem V_col_eq : (V m c main_v6 : (⟨S8192x1, .i32⟩ : BufTy).Contents (Elt F))
    = shapeCast S8192x1 (m ((c : Thread nD τ).loc main_arg1) : (⟨S8192, .i32⟩ : BufTy).Contents (Elt F)) shapeCasts_S8192_S8192x1 := by
  dsimp only [V, V0]
  simp only [hostOps0, hostOps0_1, List.flatten_cons, List.flatten_nil, List.append_nil, List.cons_append, List.nil_append]
  after_results
  rfl

/-- and so are the labels as a row. -/
theorem V_row_eq : (V m c main_v7 : (⟨S1x8192, .i32⟩ : BufTy).Contents (Elt F))
    = shapeCast S1x8192 (m ((c : Thread nD τ).loc main_arg1) : (⟨S8192, .i32⟩ : BufTy).Contents (Elt F)) shapeCasts_S8192_S1x8192 := by
  dsimp only [V, V0]
  simp only [hostOps0, hostOps0_1, List.flatten_cons, List.flatten_nil, List.append_nil, List.cons_append, List.nil_append]
  after_results
  rfl

/-- The column's entry (i, 0) is label i. -/
theorem V_col (i : S8192x1.Idx) : V m c main_v6 i = m ((c : Thread nD τ).loc main_arg1) (ix1 (i 0)) := by
  obtain ⟨a, u, rfl⟩ : ∃ (a : Fin 8192) (u : Fin 1), i = ix2 a u := ⟨i 0, i 1, eq_ix2 i⟩
  exact (congrFun (V_col_eq m c) (ix2 a u)).trans (shapeCast_column_apply _ shapeCasts_S8192_S8192x1 a u)

/-- The row's entry (0, i) is label i. -/
theorem V_row (i : S1x8192.Idx) : V m c main_v7 i = m ((c : Thread nD τ).loc main_arg1) (ix1 (i 1)) := by
  obtain ⟨u, a, rfl⟩ : ∃ (u : Fin 1) (a : Fin 8192), i = ix2 u a := ⟨i 0, i 1, eq_ix2 i⟩
  exact (congrFun (V_row_eq m c) (ix2 u a)).trans (shapeCast_a_1a_apply _ shapeCasts_S8192_S1x8192 u a)

end Host

/-- On the extended reals the matrix the region finds is the one-pass program's normalized matrix: the same
    host operations, and the narrowing of the format changes nothing. -/
theorem V_matrix (m : (ℓ : Loc nD τ sig) → Buf (Elt Ideal) ℓ) (c : Dev nD) :
    (V (F := Ideal) m c main_v5 : S8192x512.Idx → EReal)
      = Cert.ReferenceIdeal.Read.val_main_v4 (F := Ideal) (m ((c : Thread nD τ).loc main_arg0)) := by
  dsimp only [V, V0]
  simp only [hostOps0, hostOps0_1, List.flatten_cons, List.flatten_nil, List.append_nil, List.cons_append, List.nil_append]
  after_results
  rfl

end Cert.KernelIdeal.Tiles

end
-- ==== Proof.KIResult.lean ====
/-
  The tiled program's result.

  The output window's one block is the whole [8, 128] array, and it is written back at the last of the 64
  grid points only: after the region the array holds what the totals' buffer held after the last point,
  whatever it held at entry.  The six host lines after the region read its entries (0, 0) and (0, 1) — the
  equal-label total and the different-label total — and return log (1 + second / first); they write neither
  argument.
-/
import proofs.«148472_j22454089023818_1_alg».proof.Proof.KIExit
import proofs.«148472_j22454089023818_1_alg».proof.Proof.KIBlocks

set_option maxRecDepth 16384

noncomputable section

namespace Cert.KernelIdeal.Result

open Cert.KernelIdeal Cert.KernelIdeal.Gen Cert.KernelIdeal.Tiles Idealize.ShloMosaic Idealize.ShloMosaic.TcCoe Idealize.ShloMosaic.ValueIdx
open Idealize.SL.Sem
open Idealize.ShloMosaic.Pipeline (Dat)

/-! ## A corner entry read through a slice and a reshape -/

/-- The 1 × 1 slice of an [8, 128] array at column o of row 0, reshaped to a scalar, is the entry (0, o). -/
theorem corner_apply {α : Type} (T : S8x128.Idx → α) (o : Nat) (ho : o < 128) (h : S8x128.Slices ![0, o] S1x1)
    (hc : S1x1.ShapeCasts S_) (i : S_.Idx) :
    shapeCast S_ (extractStridedSlice S1x1 ![0, o] T h) hc i = T (ix2 (0 : Fin 8) (⟨o, ho⟩ : Fin 128)) := by
  have hn : S_.numel = 1 := by decide
  refine (shapeCast_apply _ hc i (ix2 (0 : Fin 1) (0 : Fin 1)) ?_).trans ?_
  · rw [Shape.rowMajor_val_two]
    have h0 : (S_.rowMajor i).val < 1 := lt_of_lt_of_eq (S_.rowMajor i).isLt hn
    show 0 * 1 + 0 = (S_.rowMajor i).val
    omega
  · exact extractStridedSlice_apply _ T h _ _ (fun a => by match a with | ⟨0, _⟩ => rfl | ⟨1, _⟩ => rfl)

section Any
variable {F : FTy → Type} [FloatOps F]
variable (m : (ℓ : Loc nD τ sig) → Buf (Elt F) ℓ)

/-! ## The output array after the region -/

/-- The last grid point. -/
theorem last_lt : 63 < cfg0.N := lt_of_lt_of_eq (by decide : 63 < 64) N_0.symm
abbrev tLast : Fin cfg0.N := ⟨63, last_lt⟩

/-- The output window's block index is (0, 0) at every point. -/
theorem out_index : ∀ t : Fin cfg0.N, win0_4.index t (0 : Fin 2) = 0 ∧ win0_4.index t (1 : Fin 2) = 0 :=
  (by decide +kernel : ∀ t : Fin grid0.N, _)

/-- An index of the array is in point t's block iff each coordinate is in the block's range on its axis. -/
theorem mem_out_block (t : Fin cfg0.N) (i : S8x128.Idx) :
    i ∈ ((cfg0.win 4).blk t).view.set
      ↔ ∀ a : Fin 2, win0_4.index t a * S8x128.size a ≤ (i a).val ∧ (i a).val < win0_4.index t a * S8x128.size a + S8x128.size a := by
  show i ∈ ((View.whole main_v8).slice (win0_4.rect t)).set ↔ _
  rw [View.set_slice_whole, Rect.mem_set_unit]
  exact Iff.rfl

/-- The one write-back, at the last point, writes what the totals' buffer holds there: the block is the array. -/
theorem flushed_out (c : Dev nD) (t : Fin cfg0.N) (hf : (cfg0.win 4).flush t = true) :
    (dats m 0 c).flushed 4 t = ((cfg0.win 4).blk t).view.read (Elt F) (totalsAt m c 63 last_lt) := by
  have h1 : t.val = 63 := by have := (flush0_4 t).mp hf; have := point_lt t; omega
  obtain rfl : t = tLast := Fin.ext h1
  obtain ⟨e0, e1⟩ := out_index tLast
  show (cfg0.win 4).cut (grid0.coords tLast) ((dats m 0 c).after 4 tLast) = _
  rw [after4]
  funext j
  show totalsAt m c 63 last_lt ((cfg0.win 4).xinj (grid0.coords tLast) j)
    = totalsAt m c 63 last_lt (((cfg0.win 4).blk tLast).view.emb j)
  refine congrArg (totalsAt m c 63 last_lt) (funext fun a => Fin.ext ?_)
  match a with
  | ⟨0, _⟩ =>
    show (j 0).val = win0_4.index tLast (0 : Fin 2) * 8 + 1 * (j 0).val
    omega
  | ⟨1, _⟩ =>
    show (j 1).val = win0_4.index tLast (1 : Fin 2) * 128 + 1 * (j 1).val
    omega

/-- After the region the output array holds what the totals' buffer held after the last point. -/
theorem out_array (c : Dev nD) : (dats m 0 c).arrAt 4 cfg0.N = totalsAt m c 63 last_lt :=
  (dats m 0 c).arrAt_eq_of_cover 4 (totalsAt m c 63 last_lt) (flushed_out m c) fun i =>
    ⟨tLast, (flush0_4 tLast).mpr rfl, by
      rw [mem_out_block]
      intro a
      obtain ⟨e0, e1⟩ := out_index tLast
      match a with
      | ⟨0, _⟩ =>
        have hi : (i 0).val < 8 := (i 0).isLt
        show win0_4.index tLast (0 : Fin 2) * 8 ≤ (i 0).val ∧ (i 0).val < win0_4.index tLast (0 : Fin 2) * 8 + 8
        omega
      | ⟨1, _⟩ =>
        have hi : (i 1).val < 128 := (i 1).isLt
        show win0_4.index tLast (1 : Fin 2) * 128 ≤ (i 1).val ∧ (i 1).val < win0_4.index tLast (1 : Fin 2) * 128 + 128
        omega⟩

/-! ## The host lines after the region -/

/-- The result buffer after the six host lines: log (1 + entry (0, 1) / entry (0, 0)) of the output array,
    each entry read through its slice and reshape. -/
theorem result_eq (c : Dev nD) :
    Wend m c (Proc.devRef .tc main_v14)
      = Host.log1p (Host.divf
          (shapeCast S_ (extractStridedSlice S1x1 ![0, 1] (Wexit m c (Proc.devRef .tc main_v8)) slices_S8x128_S1x1_0_1) shapeCasts_S1x1_S_)
          (shapeCast S_ (extractStridedSlice S1x1 ![0, 0] (Wexit m c (Proc.devRef .tc main_v8)) slices_S8x128_S1x1_0_0) shapeCasts_S1x1_S_)) := by
  unfold Wend
  simp only [hostOps1]
  after_results
  rfl

/-- The host lines after the region leave the matrix as launched, -/
theorem Wend_arg0 (c : Dev nD) : Wend m c (Proc.devRef .tc main_arg0) = m ((c : Thread nD τ).loc main_arg0) :=
  (Wend_keep m c main_arg0 (by decide)).trans ((Wexit_ne m c main_arg0 (by decide)).trans (V_arg0 m c))

/-- and the labels. -/
theorem Wend_arg1 (c : Dev nD) : Wend m c (Proc.devRef .tc main_arg1) = m ((c : Thread nD τ).loc main_arg1) :=
  (Wend_keep m c main_arg1 (by decide)).trans ((Wexit_ne m c main_arg1 (by decide)).trans (V_arg1 m c))

end Any

/-! ## The result on the extended reals -/

/-- On the extended reals the result is log (1 + entry (0, 1) / entry (0, 0)) of the output array. -/
theorem result_apply (m : (ℓ : Loc nD τ sig) → Buf (Elt Ideal) ℓ) (c : Dev nD) (i : S_.Idx) :
    Wend m c (Proc.devRef .tc main_v14) i
      = Ideal.log1p (Ideal.div ((dats m 0 c).arrAt 4 cfg0.N (ix2 (0 : Fin 8) (1 : Fin 128)))
          ((dats m 0 c).arrAt 4 cfg0.N (ix2 (0 : Fin 8) (0 : Fin 128)))) := by
  rw [result_eq, Wexit_out]
  exact congrArg Ideal.log1p (congrArg₂ Ideal.div
    (corner_apply _ 1 (by decide) slices_S8x128_S1x1_0_1 shapeCasts_S1x1_S_ i)
    (corner_apply _ 0 (by decide) slices_S8x128_S1x1_0_0 shapeCasts_S1x1_S_ i))

end Cert.KernelIdeal.Result

end
-- ==== Proof.KITile.lean ====
/-
  What one grid point adds to the running totals, at the ideal values.

  The grid point reads two blocks of 1024 rows and the two blocks' labels.  Entry (r, s) of the weights' array is
  exp (30 · (⟨row r of the first block, row s of the second⟩ − 0.2)): the product of the first block with the transpose
  of the second, into a zero accumulator, is the sum over the 512 columns of the products of the rows' entries.  The
  masked double sum (the lane sum, then the sum over the rows, the initial values zero) is the tile's equal-label sum,
  the unmasked one the tile's total.  The update adds the first to entry (0, 0) and the total less the first to
  entry (0, 1): at those entries the row-and-column test selects exactly one of the two broadcast values, and the
  other summand is zero.
-/
import proofs.«148472_j22454089023818_1_alg».proof.Proof.KIStep
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-- The weight of the pair (r, s) of a tile: exp (30 · (⟨row r of the first block, row s of the second⟩ − 0.2)),
    the two constants at their binary values. -/
def wt (x0 x1 : Vec Ideal S1024x512 .bf16) (r s : Fin 1024) : EReal :=
  Ideal.exp (Ideal.ofBits .f32 0x41F00000#32 * ((∑ k : Fin 512, x0 (ix2 r k) * x1 (ix2 s k)) - Ideal.ofBits .f32 0x3E4CCCCD#32))

/-- The tile's equal-label sum. -/
def tileP (x0 x1 : Vec Ideal S1024x512 .bf16) (x2 : Vec Ideal S1024x1 .i32) (x3 : Vec Ideal S1x1024 .i32) : EReal :=
  ∑ r : Fin 1024, ∑ s : Fin 1024, if x2 (ix2 r 0) = x3 (ix2 0 s) then wt x0 x1 r s else 0

/-- The tile's total. -/
def tileA (x0 x1 : Vec Ideal S1024x512 .bf16) : EReal :=
  ∑ r : Fin 1024, ∑ s : Fin 1024, wt x0 x1 r s

/-- On the first block's row axis the product's left index is the output row. -/
theorem lhsIdx_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- On its column axis it is the contraction position. -/
theorem lhsIdx_col (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q

/-- On the second block's row axis the product's right index is the output column. -/
theorem rhsIdx_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- On its column axis it is the contraction position. -/
theorem rhsIdx_col (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The contraction of the two blocks' rows: entry (r, s) of the product of the first block with the transpose of
    the second is the sum over the 512 columns of the products of row r's and row s's entries. -/
theorem matmul_rows_apply (x0 x1 : FVec Ideal S1024x512 .bf16) (r s : Fin 1024) :
    FloatOps.matmul dot_S1024x512_S1024x512_S1024x1024_1_1_0_0_n_n none x0 x1 (constant (F := Ideal) S1024x1024 .f32 0x00000000#32) (ix2 r s)
      = ∑ k : Fin 512, x0 (ix2 r k) * x1 (ix2 s k) := by
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r s)
      ((contrEquiv1 dot_S1024x512_S1024x512_S1024x1024_1_1_0_0_n_n 512 rfl rfl).symm k) = ix2 r k :=
    funext fun a => Fin.ext (by
      match a with
      | ⟨0, _⟩ => exact lhsIdx_row _ _
      | ⟨1, _⟩ => exact (lhsIdx_col _ _).trans hk)
  have er : dot_S1024x512_S1024x512_S1024x1024_1_1_0_0_n_n.rhsIdx (ix2 r s)
      ((contrEquiv1 dot_S1024x512_S1024x512_S1024x1024_1_1_0_0_n_n 512 rfl rfl).symm k) = ix2 s k :=
    funext fun a => Fin.ext (by
      match a with
      | ⟨0, _⟩ => exact rhsIdx_row _ _
      | ⟨1, _⟩ => exact (rhsIdx_col _ _).trans hk)
  rw [el, er]

/-- The weights' array at entry (r, s) is the weight of the pair (r, s). -/
theorem pay3_apply (x0 x1 : Vec Ideal S1024x512 .bf16) (r s : Fin 1024) :
    k0_pay3 (F := Ideal) x0 x1 (ix2 r s) = wt x0 x1 r s := by
  unfold k0_pay3 wt
  rw [shapeCast_self, shapeCast_self]
  exact congrArg (fun z : EReal => Ideal.exp (Ideal.ofBits .f32 0x41F00000#32 * (z - Ideal.ofBits .f32 0x3E4CCCCD#32)))
    (matmul_rows_apply x0 x1 r s)

/-! ## The layout operations and the two sums at an index -/

/-- The sum over the columns: entry r of the row sums of a 1024 × 1024 array. -/
theorem rowSum_apply (src : FVec Ideal S1024x1024 .f32) (r : Fin 1024) :
    multiReduction (F := Ideal) .add [1] S1024 src 0x00000000#32 reduces_S1024x1024_S1024 (.inl rfl) rfl (ix1 r)
      = ∑ s : Fin 1024, src (ix2 r s) := by
  refine (Ideal.multiReduction_add_single src 0x00000000#32 reduces_S1024x1024_S1024 (.inl rfl) rfl (ix1 r)).trans ?_
  show ∑ k : Fin 1024, src (reduces_S1024x1024_S1024.lift (ix1 r) k) = _
  refine Finset.sum_congr rfl fun k _ => congrArg src (funext fun c => Fin.ext ?_)
  match c with
  | ⟨0, _⟩ => rfl
  | ⟨1, _⟩ => rfl

/-- The sum over the rows of a one-column array. -/
theorem colSum_apply (src : FVec Ideal S1024x1 .f32) (u : Fin 1) :
    multiReduction (F := Ideal) .add [0] S1 src 0x00000000#32 reduces_S1024x1_S1 (.inl rfl) rfl (ix1 u)
      = ∑ r : Fin 1024, src (ix2 r u) := by
  refine (Ideal.multiReduction_add_single src 0x00000000#32 reduces_S1024x1_S1 (.inl rfl) rfl (ix1 u)).trans ?_
  show ∑ k : Fin 1024, src (reduces_S1024x1_S1.lift (ix1 u) k) = _
  refine Finset.sum_congr rfl fun k _ => congrArg src (funext fun c => Fin.ext ?_)
  match c with
  | ⟨0, _⟩ => rfl
  | ⟨1, _⟩ => rfl

/-- A vector of 1024 entries viewed as one column reads, at (r, u), the vector at r. -/
theorem colCast_apply {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- One column broadcast over 1024 columns reads, at (r, s), the column at r. -/
theorem bcastCol_apply {α : Type} (x : S1024x1.Idx → α) (h : S1024x1.Broadcasts S1024x1024) (r s : Fin 1024) :
    broadcastTo S1024x1024 x h (ix2 r s) = x (ix2 r 0) := by
  refine broadcastTo_apply x h (ix2 r s) (ix2 r (0 : Fin 1)) fun ax => ?_
  match ax with
  | ⟨0, _⟩ =>
    show r.val = if (1024 : Nat) = 1 then 0 else r.val
    rw [if_neg (by decide)]
  | ⟨1, _⟩ =>
    show 0 = if (1 : Nat) = 1 then 0 else s.val
    rw [if_pos rfl]

/-- A single entry broadcast over an 8 × 128 array reads that entry everywhere. -/
theorem bcastOne_apply {α : Type} (x : S1x1.Idx → α) (h : S1x1.Broadcasts S8x128) (p : Fin 8) (q : Fin 128) :
    broadcastTo S8x128 x h (ix2 p q) = x (ix2 0 0) := by
  refine broadcastTo_apply x h (ix2 p q) (ix2 (0 : Fin 1) (0 : Fin 1)) fun ax => ?_
  match ax with
  | ⟨0, _⟩ =>
    show 0 = if (1 : Nat) = 1 then 0 else p.val
    rw [if_pos rfl]
  | ⟨1, _⟩ =>
    show 0 = if (1 : Nat) = 1 then 0 else q.val
    rw [if_pos rfl]

/-- The lane sum followed by the sum over the rows, kept as a 1 × 1 array: the sum over all entries. -/
theorem doubleSum_apply (src : FVec Ideal S1024x1024 .f32) (u v : Fin 1) :
    shapeCast S1x1 (multiReduction (F := Ideal) .add [0] S1
        (shapeCast S1024x1 (multiReduction (F := Ideal) .add [1] S1024 src 0x00000000#32 reduces_S1024x1024_S1024 (.inl rfl) rfl)
          shapeCasts_S1024_S1024x1)
        0x00000000#32 reduces_S1024x1_S1 (.inl rfl) rfl) shapeCasts_S1_S1x1 (ix2 u v)
      = ∑ r : Fin 1024, ∑ s : Fin 1024, src (ix2 r s) := by
  refine (shapeCast_a_1a_apply _ shapeCasts_S1_S1x1 u v).trans ?_
  refine (colSum_apply _ v).trans ?_
  refine Finset.sum_congr rfl fun r _ => ?_
  refine (colCast_apply _ shapeCasts_S1024_S1024x1 r v).trans ?_
  exact rowSum_apply src r

/-- A selection by the comparison of two words: the first value where they are equal, the second elsewhere. -/
theorem select_cmpi_eq {α : Type} (a b : BitVec 32) (x y : α) :
    Scalar.select (IntOp.cmpi .eq a b) x y = if a = b then x else y := by
  unfold Scalar.select IntOp.cmpi
  by_cases h : a = b
  · simp [h]
  · have hb : (a == b) = false := beq_eq_false_iff_ne.mpr h
    simp [h, hb]

/-- A masked entry: where the two label arrays agree the value, zero elsewhere. -/
theorem masked_apply (m1 m2 : IVec S1024x1024 32) (a : FVec Ideal S1024x1024 .f32) (i : S1024x1024.Idx)
    (u v : BitVec 32) (w : EReal) (h1 : m1 i = u) (h2 : m2 i = v) (ha : a i = w) :
    select (cmpi .eq m1 m2) a (broadcast S1024x1024 (Scalar.ofBits (F := Ideal) .f32 0x00000000#32)) i
      = if u = v then w else 0 := by
  show Scalar.select (IntOp.cmpi .eq (m1 i) (m2 i)) (a i) (Ideal.ofBits .f32 0x00000000#32) = _
  rw [h1, h2, ha, Ideal.ofBits_zero_f32, select_cmpi_eq]

/-! ## The payloads at an index -/

/-- The masked double sum is the tile's equal-label sum. -/
theorem pay4_apply (x0 x1 : Vec Ideal S1024x512 .bf16) (x2 : Vec Ideal S1024x1 .i32) (x3 : Vec Ideal S1x1024 .i32) (u v : Fin 1) :
    k0_pay4 (F := Ideal) x0 x1 x2 x3 (ix2 u v) = tileP x0 x1 x2 x3 := by
  unfold k0_pay4 tileP
  refine (doubleSum_apply _ u v).trans ?_
  refine Finset.sum_congr rfl fun r _ => Finset.sum_congr rfl fun s _ => ?_
  refine masked_apply _ _ _ _ _ _ _ ?_ ?_ (pay3_apply x0 x1 r s)
  · exact (bcastCol_apply _ broadcasts_S1024x1_S1024x1024 r s).trans (congrFun (shapeCast_self x2 shapeCasts_S1024x1_S1024x1) _)
  · exact (broadcastTo_1b_ab_apply _ broadcasts_S1x1024_S1024x1024 r s).trans (congrFun (shapeCast_self x3 shapeCasts_S1x1024_S1x1024) _)

/-- The equal-label sum broadcast over the 8 × 128 array. -/
theorem pay5_apply (x0 x1 : Vec Ideal S1024x512 .bf16) (x2 : Vec Ideal S1024x1 .i32) (x3 : Vec Ideal S1x1024 .i32)
    (p : Fin 8) (q : Fin 128) : k0_pay5 (F := Ideal) x0 x1 x2 x3 (ix2 p q) = tileP x0 x1 x2 x3 := by
  unfold k0_pay5
  refine (bcastOne_apply _ broadcasts_S1x1_S8x128 p q).trans ?_
  refine (congrFun (shapeCast_self _ shapeCasts_S1x1_S1x1) _).trans ?_
  exact pay4_apply x0 x1 x2 x3 0 0

/-- The unmasked double sum less the masked one: the tile's total less its equal-label sum. -/
theorem pay6_apply (x0 x1 : Vec Ideal S1024x512 .bf16) (x2 : Vec Ideal S1024x1 .i32) (x3 : Vec Ideal S1x1024 .i32)
    (u v : Fin 1) : k0_pay6 (F := Ideal) x0 x1 x2 x3 (ix2 u v) = tileA x0 x1 - tileP x0 x1 x2 x3 := by
  unfold k0_pay6
  refine (congrFun (shapeCast_self _ shapeCasts_S1x1_S1x1) _).trans ?_
  refine (subf_apply _ _ _).trans ?_
  refine congrArg₂ (fun a b : EReal => a - b) ?_ (pay4_apply x0 x1 x2 x3 u v)
  refine (doubleSum_apply _ u v).trans ?_
  unfold tileA
  exact Finset.sum_congr rfl fun r _ => Finset.sum_congr rfl fun s _ => pay3_apply x0 x1 r s

/-- A selection on a mask bit that is set takes the first value. -/
theorem select_of_eq_one {α : Type} {c : BitVec 1} (hc : c = 1#1) (a b : α) : Scalar.select c a b = a := by
  rw [hc]; exact select_one a b

/-- A selection on a mask bit that is clear takes the second value. -/
theorem select_of_eq_zero {α : Type} {c : BitVec 1} (hc : c = 0#1) (a b : α) : Scalar.select c a b = b := by
  rw [hc]; exact select_zero a b

/-- The row number at entry (p, q) of the 8 × 128 array. -/
theorem rowIota_apply (p : Fin 8) (q : Fin 128) :
    iota .tc S8x128 32 [0] iota_S8x128_d0_w32 (ix2 p q) = BitVec.ofNat 32 p.val :=
  iota_single_apply .tc S8x128 32 0 iota_S8x128_d0_w32 (ix2 p q)

/-- The column number at entry (p, q) of the 8 × 128 array. -/
theorem colIota_apply (p : Fin 8) (q : Fin 128) :
    iota .tc S8x128 32 [1] iota_S8x128_d1_w32 (ix2 p q) = BitVec.ofNat 32 q.val :=
  iota_single_apply .tc S8x128 32 1 iota_S8x128_d1_w32 (ix2 p q)

/-- The update at entry (p, q), with the two mask bits named. -/
theorem pay1_apply (v36 : FVec Ideal S8x128 .f32) (v37 : FVec Ideal S1x1 .f32) (S : Vec Ideal S8x128 .f32) (p : Fin 8) (q : Fin 128) :
    k0_pay1 (F := Ideal) (iota .tc S8x128 32 [0] iota_S8x128_d0_w32) (iota .tc S8x128 32 [1] iota_S8x128_d1_w32) v36 v37 S (ix2 p q)
      = S (ix2 p q)
        + (Scalar.select (IntOp.andi (IntOp.cmpi .eq (BitVec.ofNat 32 p.val) 0#32) (IntOp.cmpi .eq (BitVec.ofNat 32 q.val) 0#32))
              (v36 (ix2 p q)) 0
            + Scalar.select (IntOp.andi (IntOp.cmpi .eq (BitVec.ofNat 32 p.val) 0#32) (IntOp.cmpi .eq (BitVec.ofNat 32 q.val) 1#32))
              (v37 (ix2 0 0)) 0) := by
  unfold k0_pay1
  refine (congrFun (shapeCast_self _ shapeCasts_S8x128_S8x128) _).trans ?_
  show S (ix2 p q)
      + (Scalar.select (IntOp.andi (IntOp.cmpi .eq (iota .tc S8x128 32 [0] iota_S8x128_d0_w32 (ix2 p q)) 0#32)
              (IntOp.cmpi .eq (iota .tc S8x128 32 [1] iota_S8x128_d1_w32 (ix2 p q)) 0#32))
            (v36 (ix2 p q)) (Ideal.ofBits .f32 0x00000000#32)
          + Scalar.select (IntOp.andi (IntOp.cmpi .eq (iota .tc S8x128 32 [0] iota_S8x128_d0_w32 (ix2 p q)) 0#32)
              (IntOp.cmpi .eq (iota .tc S8x128 32 [1] iota_S8x128_d1_w32 (ix2 p q)) 1#32))
            (broadcastTo S8x128 v37 broadcasts_S1x1_S8x128 (ix2 p q)) (Ideal.ofBits .f32 0x00000000#32)) = _
  rw [rowIota_apply, colIota_apply, bcastOne_apply, Ideal.ofBits_zero_f32]

/-- One grid point adds the tile's equal-label sum to entry (0, 0) of the running totals. -/
theorem stepOf_pos (x0 x1 : Vec Ideal S1024x512 .bf16) (x2 : Vec Ideal S1024x1 .i32) (x3 : Vec Ideal S1x1024 .i32)
    (S : Vec Ideal S8x128 .f32) :
    stepOf (F := Ideal) x0 x1 x2 x3 S (ix2 0 0) = S (ix2 0 0) + tileP x0 x1 x2 x3 := by
  unfold stepOf
  refine (pay1_apply _ _ S 0 0).trans ?_
  rw [select_of_eq_one (by decide), select_of_eq_zero (by decide), add_zero, pay5_apply]

/-- One grid point adds the tile's total less its equal-label sum to entry (0, 1) of the running totals. -/
theorem stepOf_neg (x0 x1 : Vec Ideal S1024x512 .bf16) (x2 : Vec Ideal S1024x1 .i32) (x3 : Vec Ideal S1x1024 .i32)
    (S : Vec Ideal S8x128 .f32) :
    stepOf (F := Ideal) x0 x1 x2 x3 S (ix2 0 1) = S (ix2 0 1) + (tileA x0 x1 - tileP x0 x1 x2 x3) := by
  unfold stepOf
  refine (pay1_apply _ _ S 0 1).trans ?_
  rw [select_of_eq_zero (by decide), select_of_eq_one (by decide), zero_add, pay6_apply]

/-- The array the first grid point stores before its update is zero everywhere. -/
theorem zeroed_apply (j : S8x128.Idx) : k0_pay2 (F := Ideal) j = 0 := by
  unfold k0_pay2
  refine (congrFun (shapeCast_self _ shapeCasts_S8x128_S8x128) _).trans ?_
  exact Ideal.ofBits_zero_f32

end Cert.KernelIdeal.Tile

end
-- ==== Proof.SumLaw.lean ====
/-
  The tiled walk adds up every ordered pair exactly once.

  The 64 steps of the row-major walk are the 8 × 8 tiles, and the 8 × 1024 (tile, offset) pairs are the 8192 rows.
  So the running equal-label total after the last step is the equal-label sum over all 8192 × 8192 pairs; only
  commutativity and associativity of the addition are used.  The running different-label total adds, per tile, the
  tile's total minus its equal-label sum; when every weight is a real number the tile's equal-label sum is a real
  number too, the subtraction cancels it out of the tile's total, and what is left is the tile's different-label sum.
-/
import proofs.«148472_j22454089023818_1_alg».proof.Proof.Spec
import Mathlib

noncomputable section

namespace Cert.PairSums

open Finset

/-! ## The steps of the walk are the tiles; the (tile, offset) pairs are the rows -/

/-- Step `8 i + j` of the walk visits tile `(i, j)`: a bijection between the 8 × 8 tiles and the 64 steps. -/
def stepEquiv : Fin 8 × Fin 8 ≃ Fin 64 where
  toFun p := ⟨8 * p.1.val + p.2.val, by have := p.1.isLt; have := p.2.isLt; omega⟩
  invFun u := (⟨u.val / 8, by have := u.isLt; omega⟩, ⟨u.val % 8, Nat.mod_lt _ (by decide)⟩)
  left_inv p := by
    have h1 := p.1.isLt
    have h2 := p.2.isLt
    refine Prod.ext (Fin.ext ?_) (Fin.ext ?_)
    · show (8 * p.1.val + p.2.val) / 8 = p.1.val
      omega
    · show (8 * p.1.val + p.2.val) % 8 = p.2.val
      omega
  right_inv u := by
    refine Fin.ext ?_
    show 8 * (u.val / 8) + u.val % 8 = u.val
    omega

/-- Row `1024 i + r` is offset `r` of tile `i`: a bijection between the 8 × 1024 (tile, offset) pairs and the rows. -/
def rowEquiv : Fin 8 × Fin 1024 ≃ Fin 8192 where
  toFun p := row p.1 p.2
  invFun u := (⟨u.val / 1024, by have := u.isLt; omega⟩, ⟨u.val % 1024, Nat.mod_lt _ (by decide)⟩)
  left_inv p := by
    have h1 := p.1.isLt
    have h2 := p.2.isLt
    refine Prod.ext (Fin.ext ?_) (Fin.ext ?_)
    · show (p.1.val * 1024 + p.2.val) / 1024 = p.1.val
      omega
    · show (p.1.val * 1024 + p.2.val) % 1024 = p.2.val
      omega
  right_inv u := by
    refine Fin.ext ?_
    show u.val / 1024 * 1024 + u.val % 1024 = u.val
    omega

variable {β : Type*} [AddCommMonoid β]

/-- A sum over the 64 steps of a quantity of the visited tile is the sum over the 8 × 8 tiles. -/
theorem sum_steps_eq_sum_tiles (g : Fin 8 → Fin 8 → β) :
    ∑ t ∈ Finset.range 64, g (tileI t) (tileJ t) = ∑ i : Fin 8, ∑ j : Fin 8, g i j := by
  rw [← Fin.sum_univ_eq_sum_range (fun t => g (tileI t) (tileJ t)) 64, ← Fintype.sum_prod_type' (f := g)]
  refine (Fintype.sum_equiv stepEquiv (fun p => g p.1 p.2) (fun t : Fin 64 => g (tileI t.val) (tileJ t.val)) fun p => ?_).symm
  show g p.1 p.2 = g (tileI (stepEquiv p).val) (tileJ (stepEquiv p).val)
  have h1 := p.1.isLt
  have h2 := p.2.isLt
  have hI : tileI (stepEquiv p).val = p.1 := by
    refine Fin.ext ?_
    show (8 * p.1.val + p.2.val) / 8 % 8 = p.1.val
    omega
  have hJ : tileJ (stepEquiv p).val = p.2 := by
    refine Fin.ext ?_
    show (8 * p.1.val + p.2.val) % 8 = p.2.val
    omega
  rw [hI, hJ]

/-- A sum over the 8192 rows is the sum over the 8 tiles of the sum over each tile's 1024 rows. -/
theorem sum_rows_eq_sum_tiles (f : Fin 8192 → β) :
    ∑ r : Fin 8192, f r = ∑ i : Fin 8, ∑ r : Fin 1024, f (row i r) := by
  have h1 : ∑ p : Fin 8 × Fin 1024, f (rowEquiv p) = ∑ r : Fin 8192, f r := Equiv.sum_comp rowEquiv f
  have h2 : ∑ p : Fin 8 × Fin 1024, f (rowEquiv p) = ∑ i : Fin 8, ∑ r : Fin 1024, f (rowEquiv (i, r)) :=
    Fintype.sum_prod_type _
  rw [← h1, h2]
  exact Finset.sum_congr rfl fun i _ => Finset.sum_congr rfl fun r _ => rfl

/-- A sum over all ordered pairs of rows is the sum over the 8 × 8 tiles of each tile's own sum over its
    1024 × 1024 pairs. -/
theorem sum_pairs_eq_sum_tiles (F : Fin 8192 → Fin 8192 → β) :
    ∑ r : Fin 8192, ∑ s : Fin 8192, F r s
      = ∑ i : Fin 8, ∑ j : Fin 8, ∑ r : Fin 1024, ∑ s : Fin 1024, F (row i r) (row j s) := by
  rw [sum_rows_eq_sum_tiles (fun r => ∑ s : Fin 8192, F r s)]
  refine Finset.sum_congr rfl fun i _ => ?_
  calc ∑ r : Fin 1024, ∑ s : Fin 8192, F (row i r) s
      = ∑ r : Fin 1024, ∑ j : Fin 8, ∑ s : Fin 1024, F (row i r) (row j s) :=
        Finset.sum_congr rfl fun r _ => sum_rows_eq_sum_tiles (fun s => F (row i r) s)
    _ = ∑ j : Fin 8, ∑ r : Fin 1024, ∑ s : Fin 1024, F (row i r) (row j s) := Finset.sum_comm

/-! ## The running totals as sums over the steps -/

variable (e : Fin 8192 → Fin 8192 → EReal) (M : Fin 8192 → Fin 8192 → Prop) [DecidableRel M]

/-- The different-label sum of the tile (i, j). -/
def tileNeg (i j : Fin 8) : EReal :=
  ∑ r : Fin 1024, ∑ s : Fin 1024, if M (row i r) (row j s) then 0 else e (row i r) (row j s)

/-- The running equal-label total after step `t` is the sum over the steps up to `t` of the visited tile's
    equal-label sum. -/
theorem accPos_eq_sum_range (t : ℕ) :
    accPos e M t = ∑ u ∈ Finset.range (t + 1), tilePos e M (tileI u) (tileJ u) := by
  induction t with
  | zero => simp [accPos]
  | succ t ih => rw [Finset.sum_range_succ, ← ih]; rfl

/-- The running different-label total after step `t` is the sum over the steps up to `t` of the visited tile's
    total minus its equal-label sum. -/
theorem accNeg_eq_sum_range (t : ℕ) :
    accNeg e M t
      = ∑ u ∈ Finset.range (t + 1), (tileAll e (tileI u) (tileJ u) - tilePos e M (tileI u) (tileJ u)) := by
  induction t with
  | zero => simp [accNeg]
  | succ t ih => rw [Finset.sum_range_succ, ← ih]; rfl

/-- After the last step the running equal-label total is the equal-label sum over all ordered pairs. -/
theorem accPos_last :
    accPos e M 63 = ∑ r : Fin 8192, ∑ s : Fin 8192, if M r s then e r s else 0 := by
  rw [accPos_eq_sum_range, sum_steps_eq_sum_tiles (fun i j => tilePos e M i j),
    sum_pairs_eq_sum_tiles (fun r s => if M r s then e r s else 0)]
  rfl

/-! ## Real weights: a tile's total minus its equal-label sum is its different-label sum -/

/-- A finite sum of real numbers, taken in the extended reals, is a real number. -/
theorem exists_real_sum {ι : Type*} (S : Finset ι) (f : ι → EReal) (hf : ∀ a ∈ S, ∃ y : ℝ, f a = (y : EReal)) :
    ∃ y : ℝ, ∑ a ∈ S, f a = (y : EReal) := by
  classical
  induction S using Finset.induction_on with
  | empty => exact ⟨0, by simp⟩
  | insert a S ha ih =>
    obtain ⟨y, hy⟩ := hf a (Finset.mem_insert_self a S)
    obtain ⟨z, hz⟩ := ih fun b hb => hf b (Finset.mem_insert_of_mem hb)
    exact ⟨y + z, by rw [Finset.sum_insert ha, hy, hz, EReal.coe_add]⟩

/-- A tile's total is its different-label sum plus its equal-label sum (in any case). -/
theorem tileAll_eq_tileNeg_add_tilePos (i j : Fin 8) : tileAll e i j = tileNeg e M i j + tilePos e M i j := by
  unfold tileAll tileNeg tilePos
  rw [← Finset.sum_add_distrib]
  refine Finset.sum_congr rfl fun r _ => ?_
  rw [← Finset.sum_add_distrib]
  refine Finset.sum_congr rfl fun s _ => ?_
  by_cases h : M (row i r) (row j s)
  · rw [if_pos h, if_pos h, zero_add]
  · rw [if_neg h, if_neg h, add_zero]

/-- When every weight is a real number, a tile's total minus its equal-label sum is its different-label sum. -/
theorem tileAll_sub_tilePos (he : ∀ r s, ∃ y : ℝ, e r s = (y : EReal)) (i j : Fin 8) :
    tileAll e i j - tilePos e M i j = tileNeg e M i j := by
  obtain ⟨y, hy⟩ : ∃ y : ℝ, tilePos e M i j = (y : EReal) := by
    unfold tilePos
    refine exists_real_sum _ _ fun r _ => exists_real_sum _ _ fun s _ => ?_
    by_cases h : M (row i r) (row j s)
    · rw [if_pos h]; exact he _ _
    · rw [if_neg h]; exact ⟨0, EReal.coe_zero.symm⟩
  rw [tileAll_eq_tileNeg_add_tilePos e M i j, hy, EReal.add_sub_cancel_right]

/-- After the last step, for real weights, the running different-label total is the different-label sum over all
    ordered pairs. -/
theorem accNeg_last (he : ∀ r s, ∃ y : ℝ, e r s = (y : EReal)) :
    accNeg e M 63 = ∑ r : Fin 8192, ∑ s : Fin 8192, if M r s then 0 else e r s := by
  rw [accNeg_eq_sum_range]
  have hstep : ∀ u ∈ Finset.range (63 + 1),
      tileAll e (tileI u) (tileJ u) - tilePos e M (tileI u) (tileJ u) = tileNeg e M (tileI u) (tileJ u) :=
    fun u _ => tileAll_sub_tilePos e M he _ _
  rw [Finset.sum_congr rfl hstep, sum_steps_eq_sum_tiles (fun i j => tileNeg e M i j),
    sum_pairs_eq_sum_tiles (fun r s => if M r s then 0 else e r s)]
  rfl

end Cert.PairSums

end
-- ==== Proof.KITotals.lean ====
/-
  The running totals over the 64 grid points, at the ideal values.

  At point t the four blocks are the rows of tile row t / 8 % 8 and of tile row t % 8 of the normalised matrix and
  the labels of those rows.  So the tile's equal-label sum and total, computed from the blocks, are the equal-label
  sum and total of the tile (t / 8 % 8, t % 8) of the 8192 × 8192 pairs; the buffer's entries (0, 0) and (0, 1) after
  point t are the running equal-label and different-label totals of the row-major walk; and after the last point they
  are the sums over all pairs.
-/
import proofs.«148472_j22454089023818_1_alg».proof.Proof.KIData
import proofs.«148472_j22454089023818_1_alg».proof.Proof.KIBlocks
import proofs.«148472_j22454089023818_1_alg».proof.Proof.KITile
import proofs.«148472_j22454089023818_1_alg».proof.Proof.SumLaw

noncomputable section

namespace Cert.KernelIdeal.Totals

open Cert.KernelIdeal Cert.KernelIdeal.Gen Cert.KernelIdeal.Tile Cert.KernelIdeal.Tiles Cert.PairSums
open Idealize.ShloMosaic Idealize.ShloMosaic.TcCoe Idealize.ShloMosaic.ValueIdx
open Idealize.SL.Sem

variable (m : (ℓ : Loc nD τ sig) → Buf (Elt Ideal) ℓ) (c : Dev nD)

-- The normalised matrix as the region finds it.
set_option quotPrecheck false in
local notation "nrm" => (V (F := Ideal) m c main_v5 : S8192x512.Idx → EReal)
-- The labels.
set_option quotPrecheck false in
local notation "lbl" => (m ((c : Thread nD τ).loc main_arg1) : S8192.Idx → BitVec 32)

/-! ## The tile sums computed from the blocks -/

/-- The weight of the pair (r, s) of the blocks at point t is the weight of the pair of rows they are. -/
theorem wt_blocks (t : Fin cfg0.N) (r s : Fin 1024) :
    wt (iblk m c 0 t) (iblk m c 1 t) r s = E nrm (row (tileI t.val) r) (row (tileJ t.val) s) := by
  unfold wt E
  refine congrArg (fun z : EReal => Ideal.exp (Ideal.ofBits .f32 0x41F00000#32 * (z - Ideal.ofBits .f32 0x3E4CCCCD#32))) ?_
  refine Finset.sum_congr rfl fun k _ => ?_
  exact congrArg₂ (fun a b : EReal => a * b) (iblk0_apply m c t r k) (iblk1_apply m c t s k)

/-- The column block's entry r is the label of the row it is. -/
theorem label_col (t : Fin cfg0.N) (r : Fin 1024) :
    iblk m c 2 t (ix2 r (0 : Fin 1)) = lbl (ix1 (row (tileI t.val) r)) :=
  (iblk2_apply m c t r).trans (V_col m c _)

/-- The row block's entry s is the label of the row it is. -/
theorem label_row (t : Fin cfg0.N) (s : Fin 1024) :
    iblk m c 3 t (ix2 (0 : Fin 1) s) = lbl (ix1 (row (tileJ t.val) s)) :=
  (iblk3_apply m c t s).trans (V_row m c _)

/-- The equal-label sum computed from the blocks at point t is the equal-label sum of the tile visited at step t. -/
theorem tileP_blocks (t : Fin cfg0.N) :
    tileP (iblk m c 0 t) (iblk m c 1 t) (iblk m c 2 t) (iblk m c 3 t)
      = tilePos (E nrm) (fun r s => lbl (ix1 r) = lbl (ix1 s)) (tileI t.val) (tileJ t.val) := by
  unfold tileP tilePos
  refine Finset.sum_congr rfl fun r _ => Finset.sum_congr rfl fun s _ => ?_
  exact if_congr (Eq.to_iff (congrArg₂ (fun a b : BitVec 32 => a = b) (label_col m c t r) (label_row m c t s)))
    (wt_blocks m c t r s) rfl

/-- The total computed from the blocks at point t is the total of the tile visited at step t. -/
theorem tileA_blocks (t : Fin cfg0.N) :
    tileA (iblk m c 0 t) (iblk m c 1 t) = tileAll (E nrm) (tileI t.val) (tileJ t.val) := by
  unfold tileA tileAll
  exact Finset.sum_congr rfl fun r _ => Finset.sum_congr rfl fun s _ => wt_blocks m c t r s

/-! ## The buffer's two entries are the running totals -/

/-- The same two identities with the point given by its number. -/
theorem tileP_at (k : ℕ) (h : k < cfg0.N) :
    tileP (iblk m c 0 ⟨k, h⟩) (iblk m c 1 ⟨k, h⟩) (iblk m c 2 ⟨k, h⟩) (iblk m c 3 ⟨k, h⟩)
      = tilePos (E nrm) (fun r s => lbl (ix1 r) = lbl (ix1 s)) (tileI k) (tileJ k) :=
  tileP_blocks m c ⟨k, h⟩

theorem tileA_at (k : ℕ) (h : k < cfg0.N) :
    tileA (iblk m c 0 ⟨k, h⟩) (iblk m c 1 ⟨k, h⟩) = tileAll (E nrm) (tileI k) (tileJ k) :=
  tileA_blocks m c ⟨k, h⟩

/-- The walk's recursion, step by step. -/
theorem accPos_zero (e : Fin 8192 → Fin 8192 → EReal) (M : Fin 8192 → Fin 8192 → Prop) [DecidableRel M] :
    accPos e M 0 = tilePos e M (tileI 0) (tileJ 0) := rfl
theorem accPos_succ (e : Fin 8192 → Fin 8192 → EReal) (M : Fin 8192 → Fin 8192 → Prop) [DecidableRel M] (k : ℕ) :
    accPos e M (k + 1) = accPos e M k + tilePos e M (tileI (k + 1)) (tileJ (k + 1)) := rfl
theorem accNeg_zero (e : Fin 8192 → Fin 8192 → EReal) (M : Fin 8192 → Fin 8192 → Prop) [DecidableRel M] :
    accNeg e M 0 = tileAll e (tileI 0) (tileJ 0) - tilePos e M (tileI 0) (tileJ 0) := rfl
theorem accNeg_succ (e : Fin 8192 → Fin 8192 → EReal) (M : Fin 8192 → Fin 8192 → Prop) [DecidableRel M] (k : ℕ) :
    accNeg e M (k + 1)
      = accNeg e M k + (tileAll e (tileI (k + 1)) (tileJ (k + 1)) - tilePos e M (tileI (k + 1)) (tileJ (k + 1))) := rfl

/-- The buffer after point 0 is one update of the zeroed buffer. -/
theorem totalsAt_zero (h : 0 < cfg0.N) :
    totalsAt m c 0 h
      = stepOf (iblk m c 0 ⟨0, h⟩) (iblk m c 1 ⟨0, h⟩) (iblk m c 2 ⟨0, h⟩) (iblk m c 3 ⟨0, h⟩) (k0_pay2 (F := Ideal)) :=
  totalsAt_first m c ⟨0, h⟩ rfl

/-- The buffer after point k + 1 is one update of the buffer after point k. -/
theorem totalsAt_succ (k : ℕ) (h : k + 1 < cfg0.N) :
    totalsAt m c (k + 1) h
      = stepOf (iblk m c 0 ⟨k + 1, h⟩) (iblk m c 1 ⟨k + 1, h⟩) (iblk m c 2 ⟨k + 1, h⟩) (iblk m c 3 ⟨k + 1, h⟩)
          (totalsAt m c k (Nat.lt_of_succ_lt h)) :=
  totalsAt_later m c ⟨k + 1, h⟩ (Nat.succ_ne_zero k)

/-- After point k the buffer's entries (0, 0) and (0, 1) are the running equal-label and different-label totals
    after step k of the walk. -/
theorem totals_both : ∀ (k : ℕ) (h : k < cfg0.N),
    totalsAt m c k h (ix2 0 0) = accPos (E nrm) (fun r s => lbl (ix1 r) = lbl (ix1 s)) k
      ∧ totalsAt m c k h (ix2 0 1) = accNeg (E nrm) (fun r s => lbl (ix1 r) = lbl (ix1 s)) k := by
  intro k
  induction k with
  | zero =>
    intro h
    constructor
    · refine (congrFun (totalsAt_zero m c h) _).trans ?_
      refine (stepOf_pos _ _ _ _ _).trans ?_
      refine Eq.trans ?_ (accPos_zero _ _).symm
      rw [zeroed_apply, zero_add]
      exact tileP_at m c 0 h
    · refine (congrFun (totalsAt_zero m c h) _).trans ?_
      refine (stepOf_neg _ _ _ _ _).trans ?_
      refine Eq.trans ?_ (accNeg_zero _ _).symm
      rw [zeroed_apply, zero_add]
      exact congrArg₂ (fun a b : EReal => a - b) (tileA_at m c 0 h) (tileP_at m c 0 h)
  | succ k ih =>
    intro h
    obtain ⟨ihp, ihn⟩ := ih (Nat.lt_of_succ_lt h)
    constructor
    · refine (congrFun (totalsAt_succ m c k h) _).trans ?_
      refine (stepOf_pos _ _ _ _ _).trans ?_
      refine Eq.trans ?_ (accPos_succ _ _ k).symm
      exact congrArg₂ (fun a b : EReal => a + b) ihp (tileP_at m c (k + 1) h)
    · refine (congrFun (totalsAt_succ m c k h) _).trans ?_
      refine (stepOf_neg _ _ _ _ _).trans ?_
      refine Eq.trans ?_ (accNeg_succ _ _ k).symm
      exact congrArg₂ (fun a b : EReal => a + b) ihn
        (congrArg₂ (fun a b : EReal => a - b) (tileA_at m c (k + 1) h) (tileP_at m c (k + 1) h))

/-- Entry (0, 0) after point k is the running equal-label total after step k. -/
theorem totals_pos (k : ℕ) (h : k < cfg0.N) :
    totalsAt m c k h (ix2 0 0) = accPos (E nrm) (fun r s => lbl (ix1 r) = lbl (ix1 s)) k :=
  (totals_both m c k h).1

/-- Entry (0, 1) after point k is the running different-label total after step k. -/
theorem totals_neg (k : ℕ) (h : k < cfg0.N) :
    totalsAt m c k h (ix2 0 1) = accNeg (E nrm) (fun r s => lbl (ix1 r) = lbl (ix1 s)) k :=
  (totals_both m c k h).2

/-! ## After the last point -/

/-- Point 63 is a grid point. -/
theorem last_lt : 63 < cfg0.N := lt_of_lt_of_eq (by decide : 63 < 64) N_0.symm

/-- After the last point entry (0, 0) is the sum of the weights over the pairs with equal labels. -/
theorem totals_last_pos (h : 63 < cfg0.N) : totalsAt m c 63 h (ix2 0 0) = posSum nrm lbl := by
  refine (totals_pos m c 63 h).trans ?_
  refine (accPos_last _ _).trans ?_
  unfold posSum
  exact Finset.sum_congr rfl fun r _ => Finset.sum_congr rfl fun s _ => rfl

/-- After the last point, when every weight is a real number, entry (0, 1) is the sum of the weights over the
    pairs with different labels. -/
theorem totals_last_neg (h : 63 < cfg0.N) (hE : ∀ r s, ∃ y : ℝ, E nrm r s = (y : EReal)) :
    totalsAt m c 63 h (ix2 0 1) = negSum nrm lbl := by
  refine (totals_neg m c 63 h).trans ?_
  refine (accNeg_last _ _ hE).trans ?_
  unfold negSum
  exact Finset.sum_congr rfl fun r _ => Finset.sum_congr rfl fun s _ => rfl

end Cert.KernelIdeal.Totals

end
-- ==== Proof.RefSide.lean ====
/-
  The one-pass program, read index by index, is the pair of plain sums of the specification.

  Its weight at the pair (r, s) is exp (30 · (⟨n_r, n_s⟩ − 0.2)) of the normalized rows, its mask at (r, s)
  compares the two labels, the two selects keep the weight on one side of the mask and the zero word on the
  other, and each float sum over both axes is the zero word plus the sum over every pair.
-/
import proofs.«148472_j22454089023818_1_alg».proof.Proof.Spec
import proofs.«148472_j22454089023818_1_alg».proof.Proof.Gen.ReferenceIdeal.Read

noncomputable section

namespace Cert.OnePass

open Cert.ReferenceIdeal Cert.ReferenceIdeal.Read Idealize.ShloMosaic Idealize.ShloMosaic.ValueIdx Cert.PairSums

/-! ## The index maps of the layout operations, at a pair -/

/-- The left factor of the product at (r, s), k is the entry (r, k). -/
theorem left_index (r s : Fin 8192) (k : Fin 512) : lidx_main_v6 (ix2 r s) k = ix2 r k :=
  funext fun a => Fin.ext (by match a with | ⟨0, _⟩ => rfl | ⟨1, _⟩ => rfl)

/-- The right factor, read through the transpose, is the entry (s, k). -/
theorem right_index (r s : Fin 8192) (k : Fin 512) : idx_main_v5 (ridx_main_v6 (ix2 r s) k) = ix2 s k :=
  funext fun a => Fin.ext (by match a with | ⟨0, _⟩ => rfl | ⟨1, _⟩ => rfl)

/-- The label broadcast along the columns is read at the row. -/
theorem row_label_index (r s : Fin 8192) : idx_main_v7 (idx_main_v9 (ix2 r s)) = ix1 r :=
  funext fun a => Fin.ext (by match a with | ⟨0, _⟩ => rfl)

/-- The label broadcast along the rows is read at the column. -/
theorem col_label_index (r s : Fin 8192) : idx_main_v8 (idx_main_v10 (ix2 r s)) = ix1 s :=
  funext fun a => Fin.ext (by match a with | ⟨0, _⟩ => rfl)

/-! ## The weight, the mask and the two selected arrays at a pair -/

/-- The weight at the pair (r, s) is the specification's, of the normalized rows. -/
theorem weight_apply (x0 : (⟨S8192x512, .f32⟩ : BufTy).Contents (Elt Ideal)) (r s : Fin 8192) :
    val_main_v16 (F := Ideal) x0 (ix2 r s) = E (val_main_v4 (F := Ideal) x0) r s := by
  rw [val_main_v16_apply, val_main_v15_apply, val_main_v14_apply, val_main_cst_1_apply, val_main_v13_apply,
    val_main_v6_apply, val_main_v12_apply, val_main_cst_0_apply]
  simp only [val_main_v5_apply, left_index, right_index, Ideal.hostUnary_exp_def, Ideal.mulf_def, Ideal.subf_def,
    Ideal.ofBits_def]
  rfl

/-- The mask at the pair (r, s) compares the two labels. -/
theorem mask_apply (x1 : (⟨S8192, .i32⟩ : BufTy).Contents (Elt Ideal)) (r s : Fin 8192) :
    val_main_v11 (F := Ideal) x1 (ix2 r s) = IntOp.cmpi .eq (x1 (ix1 r)) (x1 (ix1 s)) := by
  rw [val_main_v11_apply, val_main_v9_apply, val_main_v7_apply, val_main_v10_apply, val_main_v8_apply,
    row_label_index, col_label_index]

/-- A select on an equality test of two words is the `if` on their equality. -/
theorem select_cmpi_eq {α : Type} (a b : BitVec 32) (u v : α) :
    Scalar.select (IntOp.cmpi .eq a b) u v = if a = b then u else v := by
  by_cases h : a = b
  · rw [if_pos h, IntOp.cmpi_eq.mpr h]; exact select_one u v
  · rw [if_neg h, eq_zero_of_ne_one (fun hc => h (IntOp.cmpi_eq.mp hc))]; exact select_zero u v

/-- The array summed for the equal-label total: the weight where the labels agree, zero elsewhere. -/
theorem pos_term_apply (x0 : (⟨S8192x512, .f32⟩ : BufTy).Contents (Elt Ideal))
    (x1 : (⟨S8192, .i32⟩ : BufTy).Contents (Elt Ideal)) (r s : Fin 8192) :
    val_main_v17 (F := Ideal) x0 x1 (ix2 r s)
      = if x1 (ix1 r) = x1 (ix1 s) then E (val_main_v4 (F := Ideal) x0) r s else 0 := by
  rw [val_main_v17_apply, mask_apply, weight_apply, val_main_call1_v1_apply, val_main_call1_v0_apply,
    val_main_cst_2_apply, Ideal.ofBits_def, Ideal.ofBits_zero_f32]
  exact select_cmpi_eq _ _ _ _

/-- The array summed for the different-label total: zero where the labels agree, the weight elsewhere. -/
theorem neg_term_apply (x0 : (⟨S8192x512, .f32⟩ : BufTy).Contents (Elt Ideal))
    (x1 : (⟨S8192, .i32⟩ : BufTy).Contents (Elt Ideal)) (r s : Fin 8192) :
    val_main_v19 (F := Ideal) x0 x1 (ix2 r s)
      = if x1 (ix1 r) = x1 (ix1 s) then 0 else E (val_main_v4 (F := Ideal) x0) r s := by
  rw [val_main_v19_apply, mask_apply, weight_apply, val_main_call2_v1_apply, val_main_call2_v0_apply,
    val_main_cst_4_apply, Ideal.ofBits_def, Ideal.ofBits_zero_f32]
  exact select_cmpi_eq _ _ _ _

/-! ## The two totals and the result -/

/-- The equal-label total of the one-pass program is the specification's. -/
theorem ref_pos (x0 : (⟨S8192x512, .f32⟩ : BufTy).Contents (Elt Ideal))
    (x1 : (⟨S8192, .i32⟩ : BufTy).Contents (Elt Ideal)) :
    val_main_v18 (F := Ideal) x0 x1 = fun _ => posSum (val_main_v4 (F := Ideal) x0) x1 := by
  funext i
  rw [val_main_v18_apply, val_main_cst_3_apply, Ideal.ofBits_def, Ideal.ofBits_zero_f32, zero_add, sum_idx2]
  exact Finset.sum_congr rfl fun r _ => Finset.sum_congr rfl fun s _ => pos_term_apply x0 x1 r s

/-- The different-label total of the one-pass program is the specification's. -/
theorem ref_neg (x0 : (⟨S8192x512, .f32⟩ : BufTy).Contents (Elt Ideal))
    (x1 : (⟨S8192, .i32⟩ : BufTy).Contents (Elt Ideal)) :
    val_main_v20 (F := Ideal) x0 x1 = fun _ => negSum (val_main_v4 (F := Ideal) x0) x1 := by
  funext i
  rw [val_main_v20_apply, val_main_cst_5_apply, Ideal.ofBits_def, Ideal.ofBits_zero_f32, zero_add, sum_idx2]
  exact Finset.sum_congr rfl fun r _ => Finset.sum_congr rfl fun s _ => neg_term_apply x0 x1 r s

/-- The result of the one-pass program: log (1 + different-label total / equal-label total). -/
theorem ref_result (x0 : (⟨S8192x512, .f32⟩ : BufTy).Contents (Elt Ideal))
    (x1 : (⟨S8192, .i32⟩ : BufTy).Contents (Elt Ideal)) :
    val_main_v22 (F := Ideal) x0 x1
      = fun _ => Ideal.log1p (Ideal.div (negSum (val_main_v4 (F := Ideal) x0) x1) (posSum (val_main_v4 (F := Ideal) x0) x1)) := by
  funext i
  rw [val_main_v22_apply, val_main_v21_apply, ref_pos, ref_neg, Ideal.hostUnary_log1p_def, Ideal.hostDivf_def]

end Cert.OnePass

end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.Finite.lean ====
/-
  From "every float input is finite" to real values, step by step:

  * every entry of the matrix is a real;
  * the sum of the squares of a row of reals is a nonnegative real, its square root against the positive
    constant 1e-8 (as a binary32 word) has a positive real maximum, so every normalized entry — an entry
    divided by that maximum — is a real;
  * for real rows the inner product of two rows is a real, the two constants 30 and 0.2 (as binary32 words)
    are reals, and the exponential of a real is a real: every weight is a real.
-/
import proofs.«148472_j22454089023818_1_alg».proof.Proof.Spec
import proofs.«148472_j22454089023818_1_alg».proof.Proof.Gen.ReferenceIdeal.Read
import proofs.«148472_j22454089023818_1_alg».proof.Proof.Gen.Pre_finite_inputs
import proofs.«148472_j22454089023818_1_alg».proof.Proof.LibFiniteEntries

noncomputable section

namespace Cert.FiniteValues

open Cert.ReferenceIdeal Cert.ReferenceIdeal.Read Idealize.ShloMosaic Idealize.ShloMosaic.ValueIdx Cert.PairSums

/-! ## Binary32 words that denote reals -/

/-- A binary32 word whose exponent field is not all ones denotes a real. -/
theorem f32_real (b : BitVec 32) (h : (b.extractLsb' 23 8).toNat ≠ 2 ^ 8 - 1) :
    ∃ c : ℝ, Ideal.ofBits .f32 b = (c : EReal) := by
  unfold Ideal.ofBits Ideal.ieee
  dsimp only
  rw [if_neg h]
  split_ifs <;> exact ⟨_, rfl⟩

/-- With a clear sign bit and an exponent field neither all ones nor zero it denotes a positive real. -/
theorem f32_pos_real (b : BitVec 32) (hs : ¬(b.extractLsb' (8 + 23) 1 == 1#1) = true)
    (h : (b.extractLsb' 23 8).toNat ≠ 2 ^ 8 - 1) (h0 : (b.extractLsb' 23 8).toNat ≠ 0) :
    ∃ c : ℝ, 0 < c ∧ Ideal.ofBits .f32 b = (c : EReal) := by
  unfold Ideal.ofBits Ideal.ieee
  dsimp only
  rw [if_neg h, if_neg h0, if_neg hs]
  exact ⟨_, by positivity, rfl⟩

/-! ## The entries -/

/-- Under the precondition every entry of the matrix is a real. -/
theorem entries_real (x0 : (⟨S8192x512, .f32⟩ : BufTy).Contents (Elt Ideal))
    (x1 : (⟨S8192, .i32⟩ : BufTy).Contents (Elt Ideal))
    (h : Cert.Pre_finite_inputs.fn (F := Ideal) x0 x1 = fun _ => 1#1) : ∀ i, ∃ y : ℝ, x0 i = (y : EReal) := by
  intro i
  have e := congrFun h ix0
  dsimp only [Cert.Pre_finite_inputs.fn] at e
  exact FiniteEntries.real_of_all x0 _ _ _ _ e i

/-! ## The normalized entries -/

/-- The sum of the squares of a row of reals is a nonnegative real. -/
theorem row_square_sum (x0 : (⟨S8192x512, .f32⟩ : BufTy).Contents (Elt Ideal))
    (hx : ∀ i, ∃ y : ℝ, x0 i = (y : EReal)) (j : S8192.Idx) :
    ∃ q : ℝ, 0 ≤ q ∧ val_main_call0_v1 (F := Ideal) x0 j = (q : EReal) := by
  choose f hf using hx
  refine ⟨∑ k : Fin 512, f (idx_main_call0_v1 j k) * f (idx_main_call0_v1 j k),
    Finset.sum_nonneg fun k _ => mul_self_nonneg _, ?_⟩
  rw [val_main_call0_v1_apply, val_main_call0_cst_apply, Ideal.ofBits_def, Ideal.ofBits_zero_f32, zero_add,
    FiniteEntries.coe_sum]
  refine Finset.sum_congr rfl fun k _ => ?_
  rw [val_main_call0_v0_apply, Ideal.mulf_def, hf, EReal.coe_mul]

/-- The divisor of a row — the larger of the root of its square sum and the constant 1e-8 — is a positive real. -/
theorem divisor_pos_real (x0 : (⟨S8192x512, .f32⟩ : BufTy).Contents (Elt Ideal))
    (hx : ∀ i, ∃ y : ℝ, x0 i = (y : EReal)) (j : S8192x1.Idx) :
    ∃ c : ℝ, 0 < c ∧ val_main_v2 (F := Ideal) x0 j = (c : EReal) := by
  obtain ⟨q, hq, eq⟩ := row_square_sum x0 hx (idx_main_call0_v2 j)
  obtain ⟨c, hc, ec⟩ := f32_pos_real 0x322BCC77#32 (by decide) (by decide) (by decide)
  rw [val_main_v2_apply, val_main_v0_apply, val_main_call0_v2_apply, eq, val_main_v1_apply, val_main_cst_apply,
    Ideal.ofBits_def, ec, Ideal.maximumf_def, Ideal.hostUnary_sqrt_def, Ideal.sqrt_coe, if_neg (not_lt.mpr hq)]
  rcases le_total (Real.sqrt q) c with hle | hle
  · exact ⟨c, hc, max_eq_right (EReal.coe_le_coe_iff.mpr hle)⟩
  · exact ⟨Real.sqrt q, lt_of_lt_of_le hc hle, max_eq_left (EReal.coe_le_coe_iff.mpr hle)⟩

/-- Every normalized entry of a matrix of reals is a real. -/
theorem normalized_real (x0 : (⟨S8192x512, .f32⟩ : BufTy).Contents (Elt Ideal))
    (hx : ∀ i, ∃ y : ℝ, x0 i = (y : EReal)) : ∀ i, ∃ y : ℝ, val_main_v4 (F := Ideal) x0 i = (y : EReal) := by
  intro i
  obtain ⟨a, ha⟩ := hx i
  obtain ⟨c, hc, ec⟩ := divisor_pos_real x0 hx (idx_main_v3 i)
  refine ⟨a * (1 / c), ?_⟩
  rw [val_main_v4_apply, val_main_v3_apply, ec, ha, Ideal.hostDivf_def, Ideal.div_coe hc.ne', EReal.coe_mul]

/-! ## The weights -/

/-- For real rows every weight is a real. -/
theorem E_real (n : (⟨2, ![8192, 512]⟩ : Shape).Idx → EReal) (hn : ∀ i, ∃ y : ℝ, n i = (y : EReal)) :
    ∀ r s, ∃ y : ℝ, E n r s = (y : EReal) := by
  intro r s
  choose f hf using hn
  obtain ⟨a, ha⟩ := f32_real 0x41F00000#32 (by decide)
  obtain ⟨b, hb⟩ := f32_real 0x3E4CCCCD#32 (by decide)
  have hs : (∑ k : Fin 512, n (ix2 r k) * n (ix2 s k))
      = ((∑ k : Fin 512, f (ix2 r k) * f (ix2 s k) : ℝ) : EReal) := by
    rw [FiniteEntries.coe_sum]
    exact Finset.sum_congr rfl fun k _ => by rw [hf, hf, EReal.coe_mul]
  refine ⟨Real.exp (a * ((∑ k : Fin 512, f (ix2 r k) * f (ix2 s k)) - b)), ?_⟩
  unfold E
  rw [ha, hb, hs, ← EReal.coe_sub, ← EReal.coe_mul, Ideal.exp_coe]

end Cert.FiniteValues

end
-- ==== Proof.Claims.lean ====
/-
  The five claims.

  The two kernel programs — the printed one at the bit-exact instance and the same text read at the extended
  reals — run to the end and leave their arguments unchanged (the run of the host lines, the region over its
  64 grid points and the host lines after it); so does the reference, a straight line of host operations.
  The idealization rewrote nothing.  At the extended reals both programs end at
  log (1 + neg / pos), where pos is the sum of the pair weights over equal labels and neg the sum over
  different labels: the reference sums each over all pairs at once; the kernel accumulates over the 8 × 8
  tiles the tile's equal-label sum and the tile's total less that sum, which adds up to the same two numbers
  because every weight is a real number when the inputs are finite.
-/
import proofs.«148472_j22454089023818_1_alg».proof.Defs
import proofs.«148472_j22454089023818_1_alg».proof.Proof.KBRun
import proofs.«148472_j22454089023818_1_alg».proof.Proof.KIRun
import proofs.«148472_j22454089023818_1_alg».proof.Proof.KIResult
import proofs.«148472_j22454089023818_1_alg».proof.Proof.KITotals
import proofs.«148472_j22454089023818_1_alg».proof.Proof.KIBlocks
import proofs.«148472_j22454089023818_1_alg».proof.Proof.RefSide
import proofs.«148472_j22454089023818_1_alg».proof.Proof.Finite
import proofs.«148472_j22454089023818_1_alg».proof.Proof.Gen.ReferenceIdeal.Run
import proofs.«148472_j22454089023818_1_alg».proof.Proof.Gen.ReferenceIdeal.Read
import proofs.«148472_j22454089023818_1_alg».proof.Proof.Gen.Pre_finite_inputs

set_option maxRecDepth 16384

noncomputable section

namespace Cert.Proof.Claims

open Idealize.ShloMosaic Idealize.ShloMosaic.TcCoe Idealize.SL.Sem Idealize.ShloMosaic.ValueIdx Cert.PairSums

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Kernel

open Cert.KernelIdeal Cert.KernelIdeal.Gen

/-- Under the precondition the idealized kernel's result is log (1 + neg / pos) of its normalised rows and labels. -/
theorem kernel_result (m : (ℓ : Loc nD τ sig) → Buf (Elt Ideal) ℓ) (c : Dev nD)
    (hpre : Cert.Pre_finite_inputs.fn (F := Ideal) (m ((c : Thread nD τ).loc main_arg0)) (m ((c : Thread nD τ).loc main_arg1)) = fun _ => 1#1) :
    Wend m c (Proc.devRef .tc main_v14)
      = fun _ => Ideal.log1p (Ideal.div
          (negSum (Cert.ReferenceIdeal.Read.val_main_v4 (F := Ideal) (m ((c : Thread nD τ).loc main_arg0))) (m ((c : Thread nD τ).loc main_arg1)))
          (posSum (Cert.ReferenceIdeal.Read.val_main_v4 (F := Ideal) (m ((c : Thread nD τ).loc main_arg0))) (m ((c : Thread nD τ).loc main_arg1)))) := by
  funext i
  have hn := Cert.KernelIdeal.Tiles.V_matrix m c
  have hE : ∀ r s, ∃ y : ℝ, E (V (F := Ideal) m c main_v5 : S8192x512.Idx → EReal) r s = (y : EReal) := by
    rw [hn]
    exact Cert.FiniteValues.E_real _ (Cert.FiniteValues.normalized_real _ (Cert.FiniteValues.entries_real _ _ hpre))
  rw [Cert.KernelIdeal.Result.result_apply, Cert.KernelIdeal.Result.out_array,
    Cert.KernelIdeal.Totals.totals_last_pos m c, Cert.KernelIdeal.Totals.totals_last_neg m c _ hE, hn]

end Kernel

theorem algebraic : Cert.algebraic_KernelIdeal_ReferenceIdeal := by
  intro m ρ m' ρ' hpre hagree
  refine ⟨fun c => Cert.KernelIdeal.Gen.Wend m c (Proc.devRef .tc Cert.KernelIdeal.main_v14), ?_, ?_⟩
  · exact (θ_run Cert.KernelIdeal.defs _ _).mono (fun _ h c =>
      ⟨(h c).2 Cert.KernelIdeal.main_v14 Cert.KernelIdeal.Gen.result_bypasses,
        ((h c).2 Cert.KernelIdeal.main_arg0 Cert.KernelIdeal.Gen.arg0_bypasses).trans (Cert.KernelIdeal.Gen.Wend_arg0 m c),
        ((h c).2 Cert.KernelIdeal.main_arg1 Cert.KernelIdeal.Gen.arg1_bypasses).trans (Cert.KernelIdeal.Gen.Wend_arg1 m c)⟩)
      (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.OnePass.ref_result, (hagree c).1, (hagree c).2]
    exact (kernel_result m c (hpre c)).symm

end Cert.Proof.Claims

end
-- ==== Proof.lean ====
/-
  The certificate's five claims, assembled.

  A batch of 8192 rows is normalised, every ordered pair of rows gets the weight
  exp (30 · (cosine similarity − 0.2)), the weights are summed over the pairs with equal labels (pos) and
  over the pairs with different labels (neg), and the result is log (1 + neg / pos).  The kernel walks the
  8 × 8 tiles of 1024 × 1024 pairs, keeping two running totals; the reference sums all pairs at once.
  Proof/Claims.lean proves each claim; the modules it imports hold the runs of the three programs, the value
  of each at the extended reals, and the law that joins the two summation orders.
-/
import proofs.«148472_j22454089023818_1_alg».proof.Defs
import proofs.«148472_j22454089023818_1_alg».proof.Proof.Gen.Kernel
import proofs.«148472_j22454089023818_1_alg».proof.Proof.Gen.Kernel.Skeleton
import proofs.«148472_j22454089023818_1_alg».proof.Proof.Gen.Kernel.Launch
import proofs.«148472_j22454089023818_1_alg».proof.Proof.Gen.Kernel.Points
import proofs.«148472_j22454089023818_1_alg».proof.Proof.Gen.KernelIdeal
import proofs.«148472_j22454089023818_1_alg».proof.Proof.Gen.KernelIdeal.Skeleton
import proofs.«148472_j22454089023818_1_alg».proof.Proof.Gen.KernelIdeal.Launch
import proofs.«148472_j22454089023818_1_alg».proof.Proof.Gen.KernelIdeal.Points
import proofs.«148472_j22454089023818_1_alg».proof.Proof.Gen.ReferenceIdeal
import proofs.«148472_j22454089023818_1_alg».proof.Proof.Gen.Pre_finite_inputs
import proofs.«148472_j22454089023818_1_alg».proof.Proof.Gen.ReferenceIdeal.Run
import proofs.«148472_j22454089023818_1_alg».proof.Proof.Gen.ReferenceIdeal.Read
import proofs.«148472_j22454089023818_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
